-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x32x32 : Shape := ⟨4, ![4, 512, 32, 32]⟩
abbrev S64x512 : Shape := ⟨2, ![64, 512]⟩
abbrev S_ : Shape := ⟨0, ![]⟩

class Facts : Prop where
  bcast_S_S4x512x32x32 : S_.BroadcastsInDim S4x512x32x32 (![] : Fin 0 → Fin S4x512x32x32.rank)
  reducesTo_S4x512x32x32_S_d0_1_2_3 : S4x512x32x32.ReducesTo [0, 1, 2, 3] S_
  h_S_ : 0 < S_.numel
  bcast_S_S64x512 : S_.BroadcastsInDim S64x512 (![] : Fin 0 → Fin S64x512.rank)
  reducesTo_S64x512_S_d0_1 : S64x512.ReducesTo [0, 1] S_

variable [Facts]

def fn {F : FTy → Type} [FloatOps F] (main_arg0 : FVec F S4x512x32x32 .f32) (main_arg1 : FVec F S64x512 .f32) (main_arg2 : FVec F S64x512 .f32) : IVec S_ 1 :=
  let main_v0 : FVec F S4x512x32x32 .f32 := Host.absf main_arg0
  let main_cst : FVec F S_ .f32 := constant S_ .f32 0x7F800000#32
  let main_v1 : FVec F S4x512x32x32 .f32 := broadcastInDim S4x512x32x32 ![] bcast_S_S4x512x32x32 main_cst
  let main_v2 : IVec S4x512x32x32 1 := cmpf .olt main_v0 main_v1
  let main_c : IVec S_ 1 := constantI S_ 1 1#1
  let main_v3 : IVec S_ 1 := (fun x v => Host.reduce IntOp.andi x v reducesTo_S4x512x32x32_S_d0_1_2_3 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  main_v13
-- ==== Kernel.lean ====
abbrev S4x512x32x32 : Shape := ⟨4, ![4, 512, 32, 32]⟩
abbrev S64x512 : Shape := ⟨2, ![64, 512]⟩
abbrev S4x512x1024 : Shape := ⟨3, ![4, 512, 1024]⟩
abbrev S4x64x1024 : Shape := ⟨3, ![4, 64, 1024]⟩
abbrev S4x64x512 : Shape := ⟨3, ![4, 64, 512]⟩
abbrev S1x512x1024 : Shape := ⟨3, ![1, 512, 1024]⟩
abbrev S1x64x1024 : Shape := ⟨3, ![1, 64, 1024]⟩
abbrev S1x64x512 : Shape := ⟨3, ![1, 64, 512]⟩
abbrev S512x1024 : Shape := ⟨2, ![512, 1024]⟩
abbrev S64 : Shape := ⟨1, ![64]⟩
abbrev S64x1 : Shape := ⟨2, ![64, 1]⟩
abbrev S64x1024 : Shape := ⟨2, ![64, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S4x32768 : Shape := ⟨2, ![4, 32768]⟩
abbrev S4x512x64 : Shape := ⟨3, ![4, 512, 64]⟩

abbrev nBuf : Space → Nat
  | .hbm => 8
  | .vmem => 8
  | .smem => 0
  | _ => 0

abbrev bufTy : (tb : Table) → Fin (tcTables nBuf tb) → BufTy
  | .hbm, ⟨0, _⟩ => ⟨S4x512x32x32, .f32⟩
  | .hbm, ⟨1, _⟩ => ⟨S64x512, .f32⟩
  | .hbm, ⟨2, _⟩ => ⟨S64x512, .f32⟩
  | .hbm, ⟨3, _⟩ => ⟨S4x512x1024, .f32⟩
  | .hbm, ⟨4, _⟩ => ⟨S4x64x1024, .f32⟩
  | .hbm, ⟨5, _⟩ => ⟨S4x64x512, .f32⟩
  | .hbm, ⟨6, _⟩ => ⟨S4x32768, .f32⟩
  | .hbm, ⟨7, _⟩ => ⟨S4x512x64, .f32⟩
  | .local _ .vmem, ⟨0, _⟩ => ⟨S1x512x1024, .f32⟩
  | .local _ .vmem, ⟨1, _⟩ => ⟨S1x512x1024, .f32⟩
  | .local _ .vmem, ⟨2, _⟩ => ⟨S64x512, .f32⟩
  | .local _ .vmem, ⟨3, _⟩ => ⟨S64x512, .f32⟩
  | .local _ .vmem, ⟨4, _⟩ => ⟨S1x64x1024, .f32⟩
  | .local _ .vmem, ⟨5, _⟩ => ⟨S1x64x1024, .f32⟩
  | .local _ .vmem, ⟨6, _⟩ => ⟨S1x64x512, .f32⟩
  | .local _ .vmem, ⟨7, _⟩ => ⟨S1x64x512, .f32⟩
  | _, _ => ⟨S4x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x512x32x32_S4x512x1024 : S4x512x32x32.ShapeCasts S4x512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S64x512_S64x512_0_0 : ∀ a, (![0, 0] : Fin 2 → Nat) a + S64x512.size a ≤ S64x512.size a
  h_S64x512 : 0 < S64x512.numel
  reduces_S64x512_S64 : S64x512.Reduces [1] S64
  shapeCasts_S64_S64x1 : S64.ShapeCasts S64x1
  bitsLt_bf16_f32 : FTy.bits .bf16 < FTy.bits .f32
  broadcasts_S64x1_S64x1024 : S64x1.Broadcasts S64x1024
  reduces_S64x1024_S1024 : S64x1024.Reduces [0] S1024
  shapeCasts_S1024_S1x1024 : S1024.ShapeCasts S1x1024
  broadcasts_S1x1024_S64x1024 : S1x1024.Broadcasts S64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  reduces_S64x1024_S64 : S64x1024.Reduces [1] S64
  broadcasts_S64x1_S64x512 : S64x1.Broadcasts S64x512
  reduces_S64x1_S1 : S64x1.Reduces [0] S1
  shapeCasts_S1_S1x1 : S1.ShapeCasts S1x1
  broadcasts_S1x1_S64x512 : S1x1.Broadcasts S64x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  shapeCasts_S4x64x512_S4x32768 : S4x64x512.ShapeCasts S4x32768
  shapeCasts_S4x32768_S4x512x64 : S4x32768.ShapeCasts S4x512x64
  dot_S64x512_S512x1024_S64x1024_1_0_0_1_n_n_wf : DotDims.WF S64x512 S512x1024 S64x1024 [1] [0] [0] [1] [] []
  dot_S64x1024_S512x1024_S64x512_1_1_0_0_n_n_wf : DotDims.WF S64x1024 S512x1024 S64x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x512x1024.size a
  hwx0_0 : ∀ i : grid0.Coords, EltTy.bits .f32 = 32 ∨ (Rect.block (s := S4x512x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x1024.size a ≤ S4x64x1024.size a
  hwx0_3 : ∀ i : grid0.Coords, EltTy.bits .f32 = 32 ∨ (Rect.block (s := S4x64x1024) S1x64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x512.size a ≤ S4x64x512.size a
  hwx0_4 : ∀ i : grid0.Coords, EltTy.bits .f32 = 32 ∨ (Rect.block (s := S4x64x512) S1x64x512.size (cc0_transform_4 i) (hinb0_4 i)).WholeWords (EltTy.packing .f32)

variable [Facts₀]

def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf
def dot_S64x1024_S512x1024_S64x512_1_1_0_0_n_n : DotDims S64x1024 S512x1024 S64x512 where
  lhsContracting := [1]
  rhsContracting := [1]
  lhsNonContracting := [0]
  rhsNonContracting := [0]
  lhsBatch := []
  rhsBatch := []
  wf := dot_S64x1024_S512x1024_S64x512_1_1_0_0_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x64x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x64x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x512x32x32 : Shape := ⟨4, ![4, 512, 32, 32]⟩
abbrev S64x512 : Shape := ⟨2, ![64, 512]⟩
abbrev S4x512x1024 : Shape := ⟨3, ![4, 512, 1024]⟩
abbrev S4x1024x512 : Shape := ⟨3, ![4, 1024, 512]⟩
abbrev S_ : Shape := ⟨0, ![]⟩
abbrev S64x4x1024 : Shape := ⟨3, ![64, 4, 1024]⟩
abbrev S4x64x1024 : Shape := ⟨3, ![4, 64, 1024]⟩
abbrev S64 : Shape := ⟨1, ![64]⟩
abbrev S1x64x1 : Shape := ⟨3, ![1, 64, 1]⟩
abbrev S4x1024 : Shape := ⟨2, ![4, 1024]⟩
abbrev S4x1x1024 : Shape := ⟨3, ![4, 1, 1024]⟩
abbrev S4x64 : Shape := ⟨2, ![4, 64]⟩
abbrev S4x64x512 : Shape := ⟨3, ![4, 64, 512]⟩
abbrev S4x64x1 : Shape := ⟨3, ![4, 64, 1]⟩
abbrev S1x64x512 : Shape := ⟨3, ![1, 64, 512]⟩
abbrev S4x32768 : Shape := ⟨2, ![4, 32768]⟩
abbrev S4 : Shape := ⟨1, ![4]⟩
abbrev S4x1 : Shape := ⟨2, ![4, 1]⟩
abbrev S4x512x64 : Shape := ⟨3, ![4, 512, 64]⟩

abbrev nBuf : Space → Nat
  | .hbm => 94
  | .vmem => 0
  | .smem => 0
  | _ => 0

abbrev bufTy : (tb : Table) → Fin (tcTables nBuf tb) → BufTy
  | .hbm, ⟨0, _⟩ => ⟨S4x512x32x32, .f32⟩
  | .hbm, ⟨1, _⟩ => ⟨S64x512, .f32⟩
  | .hbm, ⟨2, _⟩ => ⟨S64x512, .f32⟩
  | .hbm, ⟨3, _⟩ => ⟨S4x512x1024, .f32⟩
  | .hbm, ⟨4, _⟩ => ⟨S4x1024x512, .f32⟩
  | .hbm, ⟨5, _⟩ => ⟨S64x512, .f32⟩
  | .hbm, ⟨6, _⟩ => ⟨S64x512, .f32⟩
  | .hbm, ⟨7, _⟩ => ⟨S_, .f32⟩
  | .hbm, ⟨8, _⟩ => ⟨S64x512, .f32⟩
  | .hbm, ⟨9, _⟩ => ⟨S64x512, .f32⟩
  | .hbm, ⟨10, _⟩ => ⟨S_, .f32⟩
  | .hbm, ⟨11, _⟩ => ⟨S64x512, .f32⟩
  | .hbm, ⟨12, _⟩ => ⟨S64x512, .f32⟩
  | .hbm, ⟨13, _⟩ => ⟨S_, .f32⟩
  | .hbm, ⟨14, _⟩ => ⟨S64x512, .f32⟩
  | .hbm, ⟨15, _⟩ => ⟨S64x512, .f32⟩
  | .hbm, ⟨16, _⟩ => ⟨S_, .f32⟩
  | .hbm, ⟨17, _⟩ => ⟨S64x512, .f32⟩
  | .hbm, ⟨18, _⟩ => ⟨S64x512, .f32⟩
  | .hbm, ⟨19, _⟩ => ⟨S64x512, .f32⟩
  | .hbm, ⟨20, _⟩ => ⟨S4x1024x512, .f32⟩
  | .hbm, ⟨21, _⟩ => ⟨S64x4x1024, .f32⟩
  | .hbm, ⟨22, _⟩ => ⟨S4x64x1024, .f32⟩
  | .hbm, ⟨23, _⟩ => ⟨S64x512, .f32⟩
  | .hbm, ⟨24, _⟩ => ⟨S64x4x1024, .f32⟩
  | .hbm, ⟨25, _⟩ => ⟨S4x64x1024, .f32⟩
  | .hbm, ⟨26, _⟩ => ⟨S_, .f32⟩
  | .hbm, ⟨27, _⟩ => ⟨S4x64x1024, .f32⟩
  | .hbm, ⟨28, _⟩ => ⟨S4x64x1024, .f32⟩
  | .hbm, ⟨29, _⟩ => ⟨S4x64x1024, .f32⟩
  | .hbm, ⟨30, _⟩ => ⟨S64x512, .f32⟩
  | .hbm, ⟨31, _⟩ => ⟨S64x512, .f32⟩
  | .hbm, ⟨32, _⟩ => ⟨S_, .f32⟩
  | .hbm, ⟨33, _⟩ => ⟨S64, .f32⟩
  | .hbm, ⟨34, _⟩ => ⟨S1x64x1, .f32⟩
  | .hbm, ⟨35, _⟩ => ⟨S4x64x1024, .f32⟩
  | .hbm, ⟨36, _⟩ => ⟨S4x64x1024, .f32⟩
  | .hbm, ⟨37, _⟩ => ⟨S_, .f32⟩
  | .hbm, ⟨38, _⟩ => ⟨S4x64x1024, .f32⟩
  | .hbm, ⟨39, _⟩ => ⟨S4x64x1024, .f32⟩
  | .hbm, ⟨40, _⟩ => ⟨S_, .f32⟩
  | .hbm, ⟨41, _⟩ => ⟨S4x1024, .f32⟩
  | .hbm, ⟨42, _⟩ => ⟨S_, .f32⟩
  | .hbm, ⟨43, _⟩ => ⟨S4x1024, .f32⟩
  | .hbm, ⟨44, _⟩ => ⟨S4x1024, .f32⟩
  | .hbm, ⟨45, _⟩ => ⟨S4x1x1024, .f32⟩
  | .hbm, ⟨46, _⟩ => ⟨S4x64x1024, .f32⟩
  | .hbm, ⟨47, _⟩ => ⟨S4x64x1024, .f32⟩
  | .hbm, ⟨48, _⟩ => ⟨S4x64x1024, .f32⟩
  | .hbm, ⟨49, _⟩ => ⟨S_, .f32⟩
  | .hbm, ⟨50, _⟩ => ⟨S4x1024, .f32⟩
  | .hbm, ⟨51, _⟩ => ⟨S4x1x1024, .f32⟩
  | .hbm, ⟨52, _⟩ => ⟨S4x64x1024, .f32⟩
  | .hbm, ⟨53, _⟩ => ⟨S4x64x1024, .f32⟩
  | .hbm, ⟨54, _⟩ => ⟨S_, .f32⟩
  | .hbm, ⟨55, _⟩ => ⟨S4x64, .f32⟩
  | .hbm, ⟨56, _⟩ => ⟨S4x64x512, .f32⟩
  | .hbm, ⟨57, _⟩ => ⟨S4x64x1, .f32⟩
  | .hbm, ⟨58, _⟩ => ⟨S1x64x512, .f32⟩
  | .hbm, ⟨59, _⟩ => ⟨S4x64x512, .f32⟩
  | .hbm, ⟨60, _⟩ => ⟨S4x64x512, .f32⟩
  | .hbm, ⟨61, _⟩ => ⟨S4x64x512, .f32⟩
  | .hbm, ⟨62, _⟩ => ⟨S4x64x512, .f32⟩
  | .hbm, ⟨63, _⟩ => ⟨S1x64x512, .f32⟩
  | .hbm, ⟨64, _⟩ => ⟨S4x64x512, .f32⟩
  | .hbm, ⟨65, _⟩ => ⟨S4x64x512, .f32⟩
  | .hbm, ⟨66, _⟩ => ⟨S4x64x1, .f32⟩
  | .hbm, ⟨67, _⟩ => ⟨S_, .f32⟩
  | .hbm, ⟨68, _⟩ => ⟨S4x64x1, .f32⟩
  | .hbm, ⟨69, _⟩ => ⟨S4x64x1, .f32⟩
  | .hbm, ⟨70, _⟩ => ⟨S4x64x512, .f32⟩
  | .hbm, ⟨71, _⟩ => ⟨S4x64x512, .f32⟩
  | .hbm, ⟨72, _⟩ => ⟨S4x64x512, .f32⟩
  | .hbm, ⟨73, _⟩ => ⟨S_, .f32⟩
  | .hbm, ⟨74, _⟩ => ⟨S4x64, .f32⟩
  | .hbm, ⟨75, _⟩ => ⟨S4x64x1, .f32⟩
  | .hbm, ⟨76, _⟩ => ⟨S4x64x1, .f32⟩
  | .hbm, ⟨77, _⟩ => ⟨S_, .f32⟩
  | .hbm, ⟨78, _⟩ => ⟨S4x64x1, .f32⟩
  | .hbm, ⟨79, _⟩ => ⟨S4x64x1, .f32⟩
  | .hbm, ⟨80, _⟩ => ⟨S4x64x512, .f32⟩
  | .hbm, ⟨81, _⟩ => ⟨S4x64x512, .f32⟩
  | .hbm, ⟨82, _⟩ => ⟨S4x32768, .f32⟩
  | .hbm, ⟨83, _⟩ => ⟨S4x32768, .f32⟩
  | .hbm, ⟨84, _⟩ => ⟨S_, .f32⟩
  | .hbm, ⟨85, _⟩ => ⟨S4, .f32⟩
  | .hbm, ⟨86, _⟩ => ⟨S4x1, .f32⟩
  | .hbm, ⟨87, _⟩ => ⟨S4x1, .f32⟩
  | .hbm, ⟨88, _⟩ => ⟨S_, .f32⟩
  | .hbm, ⟨89, _⟩ => ⟨S4x1, .f32⟩
  | .hbm, ⟨90, _⟩ => ⟨S4x1, .f32⟩
  | .hbm, ⟨91, _⟩ => ⟨S4x32768, .f32⟩
  | .hbm, ⟨92, _⟩ => ⟨S4x32768, .f32⟩
  | .hbm, ⟨93, _⟩ => ⟨S4x512x64, .f32⟩
  | _, _ => ⟨S4x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_9 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_10 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_call0_v0 : Ref sig .tc := ⟨.hbm, 72, rfl⟩
abbrev main_call0_cst : Ref sig .tc := ⟨.hbm, 73, rfl⟩
abbrev main_call0_v1 : Ref sig .tc := ⟨.hbm, 74, rfl⟩
abbrev main_call0_v2 : Ref sig .tc := ⟨.hbm, 75, rfl⟩
abbrev main_v57 : Ref sig .tc := ⟨.hbm, 76, rfl⟩
abbrev main_cst_11 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_call1_v0 : Ref sig .tc := ⟨.hbm, 83, rfl⟩
abbrev main_call1_cst : Ref sig .tc := ⟨.hbm, 84, rfl⟩
abbrev main_call1_v1 : Ref sig .tc := ⟨.hbm, 85, rfl⟩
abbrev main_call1_v2 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]

class Facts₀ : Prop where
  shapeCasts_S4x512x32x32_S4x512x1024 : S4x512x32x32.ShapeCasts S4x512x1024
  transposes_S4x512x1024_S4x1024x512_0_2_1 : S4x512x1024.Transposes [0, 2, 1] S4x1024x512
  bcast_S_S64x512 : S_.BroadcastsInDim S64x512 (![] : Fin 0 → Fin S64x512.rank)
  transposes_S64x4x1024_S4x64x1024_1_0_2 : S64x4x1024.Transposes [1, 0, 2] S4x64x1024
  bcast_S_S4x64x1024 : S_.BroadcastsInDim S4x64x1024 (![] : Fin 0 → Fin S4x64x1024.rank)
  reducesTo_S64x512_S64_d1 : S64x512.ReducesTo [1] S64
  h_S_ : 0 < S_.numel
  bcast_S64_S1x64x1_1 : S64.BroadcastsInDim S1x64x1 (![1] : Fin 1 → Fin S1x64x1.rank)
  bcast_S1x64x1_S4x64x1024_0_1_2 : S1x64x1.BroadcastsInDim S4x64x1024 (![0, 1, 2] : Fin 3 → Fin S4x64x1024.rank)
  reducesTo_S4x64x1024_S4x1024_d1 : S4x64x1024.ReducesTo [1] S4x1024
  bcast_S_S4x1024 : S_.BroadcastsInDim S4x1024 (![] : Fin 0 → Fin S4x1024.rank)
  bcast_S4x1024_S4x1x1024_0_2 : S4x1024.BroadcastsInDim S4x1x1024 (![0, 2] : Fin 2 → Fin S4x1x1024.rank)
  bcast_S4x1x1024_S4x64x1024_0_1_2 : S4x1x1024.BroadcastsInDim S4x64x1024 (![0, 1, 2] : Fin 3 → Fin S4x64x1024.rank)
  reducesTo_S4x64x1024_S4x64_d2 : S4x64x1024.ReducesTo [2] S4x64
  bcast_S4x64_S4x64x1_0_1 : S4x64.BroadcastsInDim S4x64x1 (![0, 1] : Fin 2 → Fin S4x64x1.rank)
  bcast_S64x512_S1x64x512_1_2 : S64x512.BroadcastsInDim S1x64x512 (![1, 2] : Fin 2 → Fin S1x64x512.rank)
  bcast_S4x64x1_S4x64x512_0_1_2 : S4x64x1.BroadcastsInDim S4x64x512 (![0, 1, 2] : Fin 3 → Fin S4x64x512.rank)
  bcast_S1x64x512_S4x64x512_0_1_2 : S1x64x512.BroadcastsInDim S4x64x512 (![0, 1, 2] : Fin 3 → Fin S4x64x512.rank)
  bcast_S_S4x64x1 : S_.BroadcastsInDim S4x64x1 (![] : Fin 0 → Fin S4x64x1.rank)
  reducesTo_S4x64x512_S4x64_d2 : S4x64x512.ReducesTo [2] S4x64
  shapeCasts_S4x64x512_S4x32768 : S4x64x512.ShapeCasts S4x32768
  reducesTo_S4x32768_S4_d1 : S4x32768.ReducesTo [1] S4
  bcast_S4_S4x1_0 : S4.BroadcastsInDim S4x1 (![0] : Fin 1 → Fin S4x1.rank)
  bcast_S_S4x1 : S_.BroadcastsInDim S4x1 (![] : Fin 0 → Fin S4x1.rank)
  bcast_S4x1_S4x32768_0_1 : S4x1.BroadcastsInDim S4x32768 (![0, 1] : Fin 2 → Fin S4x32768.rank)
  shapeCasts_S4x32768_S4x512x64 : S4x32768.ShapeCasts S4x512x64
  dot_S64x512_S4x1024x512_S64x4x1024_1_2_0_01_n_n_wf : DotDims.WF S64x512 S4x1024x512 S64x4x1024 [1] [2] [0] [0, 1] [] []
  dot_S4x64x1024_S4x1024x512_S4x64x512_2_1_1_2_0_0_wf : DotDims.WF S4x64x1024 S4x1024x512 S4x64x512 [2] [1] [1] [2] [0] [0]

variable [Facts₀]

def dot_S64x512_S4x1024x512_S64x4x1024_1_2_0_01_n_n : DotDims S64x512 S4x1024x512 S64x4x1024 where
  lhsContracting := [1]
  rhsContracting := [2]
  lhsNonContracting := [0]
  rhsNonContracting := [0, 1]
  lhsBatch := []
  rhsBatch := []
  wf := dot_S64x512_S4x1024x512_S64x4x1024_1_2_0_01_n_n_wf
def dot_S4x64x1024_S4x1024x512_S4x64x512_2_1_1_2_0_0 : DotDims S4x64x1024 S4x1024x512 S4x64x512 where
  lhsContracting := [2]
  rhsContracting := [1]
  lhsNonContracting := [1]
  rhsNonContracting := [2]
  lhsBatch := [0]
  rhsBatch := [0]
  wf := dot_S4x64x1024_S4x1024x512_S4x64x512_2_1_1_2_0_0_wf

class Facts : Prop extends Facts₀ where

variable [Facts]
-- ==== Proof.Spec.lean ====
/-
  The function both programs compute, for ONE batch member, over the extended reals.

  The inputs are one image's features `x c n` (512 channels, 1024 positions) and the two parameter tables
  `a k c` (the 64 anchors) and `sp k c` (the pre-sigmoid widths). With `inv k c = 1 / (sigmoid (sp k c) + ε₇)`:

    d²(k, n)   = Σ_c inv²·x²  −  2 · Σ_c (a·inv²)·x  +  Σ_c a²·inv²        (the scaled squared distance, expanded)
    soft(k, n) = softmax over k of −d²/2, taken the stable way: exp (ℓ − max_k ℓ) / Σ_k exp (ℓ − max_k ℓ)
    w(k)       = Σ_n soft(k, n)
    nodes(k,c) = ((Σ_n soft(k, n)·x(c, n) − w(k)·a(k, c)) · inv(k, c)) / (w(k) + ε₇)
    then every row k is divided by max(‖row‖, ε₁₂), and the whole 64 × 512 table by max(‖table‖, ε₁₂).

  Every operation is the exact one on the extended reals; the float literals stay as the words the programs
  spell (both programs spell the same words). Sums are plain finite sums; the column maximum is folded from
  the literal −∞.
-/
import Idealize.ShloMosaic.PureOps.Ideal
import Idealize.ShloMosaic.Lib.ValueIdx
import Mathlib.Data.Finset.Fold
import Mathlib.Algebra.BigOperators.Fin

noncomputable section

namespace Cert.SoftAssign

open Idealize.ShloMosaic

/-- The literals: 1e-7, 1e-12, 1, 2, −1/2 and −∞ as the f32 words both programs carry. -/
abbrev eps7 : EReal := Ideal.ofBits .f32 0x33D6BF95#32
abbrev eps12 : EReal := Ideal.ofBits .f32 0x2B8CBCCC#32
abbrev one : EReal := Ideal.ofBits .f32 0x3F800000#32
abbrev two : EReal := Ideal.ofBits .f32 0x40000000#32
abbrev mhalf : EReal := Ideal.ofBits .f32 0xBF000000#32
abbrev ninf : EReal := Ideal.ofBits .f32 0xFF800000#32

variable (x : Fin 512 → Fin 1024 → EReal) (a sp : Fin 64 → Fin 512 → EReal)

/-- The reciprocal width `1 / (sigmoid (sp k c) + 1e-7)`, the sigmoid spelt `1 / (1 + e^(−t))`. -/
def inv (k : Fin 64) (c : Fin 512) : EReal :=
  Ideal.div one (Ideal.div one (one + Ideal.exp (-(sp k c))) + eps7)

def inv2 (k : Fin 64) (c : Fin 512) : EReal := inv sp k c * inv sp k c

/-- `Σ_c a² · inv²`: the anchor's own term of the expanded squared distance. -/
def anchorTerm (k : Fin 64) : EReal := ∑ c : Fin 512, (a k c * a k c) * inv2 sp k c

/-- `Σ_c inv² · x²`. -/
def squareTerm (k : Fin 64) (n : Fin 1024) : EReal := ∑ c : Fin 512, inv2 sp k c * (x c n * x c n)

/-- `Σ_c (a · inv²) · x`. -/
def crossTerm (k : Fin 64) (n : Fin 1024) : EReal := ∑ c : Fin 512, (a k c * inv2 sp k c) * x c n

/-- The logit `−½ · d²(k, n)`. -/
def logit (k : Fin 64) (n : Fin 1024) : EReal :=
  mhalf * ((squareTerm x sp k n - two * crossTerm x a sp k n) + anchorTerm a sp k)

/-- The largest logit of position `n` over the 64 anchors, folded from −∞. -/
def colMax (n : Fin 1024) : EReal := (Finset.univ : Finset (Fin 64)).fold max ninf (fun k => logit x a sp k n)

def expo (k : Fin 64) (n : Fin 1024) : EReal := Ideal.exp (logit x a sp k n - colMax x a sp n)

def colSum (n : Fin 1024) : EReal := ∑ k : Fin 64, expo x a sp k n

/-- The soft assignment of position `n` to anchor `k`. -/
def soft (k : Fin 64) (n : Fin 1024) : EReal := Ideal.div (expo x a sp k n) (colSum x a sp n)

/-- The total weight an anchor receives. -/
def weight (k : Fin 64) : EReal := ∑ n : Fin 1024, soft x a sp k n

/-- `Σ_n soft(k, n) · x(c, n)`. -/
def weighted (k : Fin 64) (c : Fin 512) : EReal := ∑ n : Fin 1024, soft x a sp k n * x c n

/-- The aggregated, width-scaled residual of anchor `k` in channel `c`. -/
def node (k : Fin 64) (c : Fin 512) : EReal :=
  Ideal.div ((weighted x a sp k c - weight x a sp k * a k c) * inv sp k c) (weight x a sp k + eps7)

/-- A row's Euclidean norm, kept away from zero. -/
def rowNorm (k : Fin 64) : EReal := max (Ideal.sqrt (∑ c : Fin 512, node x a sp k c * node x a sp k c)) eps12

def rowUnit (k : Fin 64) (c : Fin 512) : EReal := Ideal.div (node x a sp k c) (rowNorm x a sp k)

/-- The squared norm of the whole row-normalised table, summed row by row. -/
def total : EReal := ∑ k : Fin 64, ∑ c : Fin 512, rowUnit x a sp k c * rowUnit x a sp k c

def tableNorm : EReal := max (Ideal.sqrt (total x a sp)) eps12

/-- The doubly normalised descriptor. -/
def descr (k : Fin 64) (c : Fin 512) : EReal := Ideal.div (rowUnit x a sp k c) (tableNorm x a sp)

/-! ## The two results as whole arrays

  The batch of four images is an array `X` of shape `[4, 512, 1024]`; member `b` of it is `fun c n => X (b, c, n)`.
  The first result, `[4, 64, 1024]`, holds each member's soft assignment; the second, `[4, 64, 512]`, each member's
  descriptor (both programs then re-read its row-major order as `[4, 32768]` and `[4, 512, 64]`). -/

open Idealize.ShloMosaic.ValueIdx

/-- Member `b` of the batch. -/
def member (X : (⟨3, ![4, 512, 1024]⟩ : Shape).Idx → EReal) (b : Fin 4) : Fin 512 → Fin 1024 → EReal :=
  fun c n => X (ix3 b c n)

/-- A `[64, 512]` table by anchor and channel. -/
def tableOf (A : (⟨2, ![64, 512]⟩ : Shape).Idx → EReal) : Fin 64 → Fin 512 → EReal := fun k c => A (ix2 k c)

def softArr (X : (⟨3, ![4, 512, 1024]⟩ : Shape).Idx → EReal) (A S : (⟨2, ![64, 512]⟩ : Shape).Idx → EReal) :
    (⟨3, ![4, 64, 1024]⟩ : Shape).Idx → EReal :=
  fun i => soft (member X (i 0)) (tableOf A) (tableOf S) (i 1) (i 2)

def descrArr (X : (⟨3, ![4, 512, 1024]⟩ : Shape).Idx → EReal) (A S : (⟨2, ![64, 512]⟩ : Shape).Idx → EReal) :
    (⟨3, ![4, 64, 512]⟩ : Shape).Idx → EReal :=
  fun i => descr (member X (i 0)) (tableOf A) (tableOf S) (i 1) (i 2)

end Cert.SoftAssign

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.LibAxisZero.lean ====
/-
  Reading a reduction over the FIRST axis of a matrix, and a one-entry matrix broadcast to a full one, at
  explicit coordinates.

  A reduction of an `[m, n]` array over its first axis has, at column `c`, the source indices `(k, c)`, `k < m`
  (with `n = 1` this is the total of a column `[m, 1]`). A `[1, 1]` array broadcast to `[a, b]` reads its one
  entry everywhere.
-/
import Idealize.ShloMosaic.PureOps.Reduce
import Idealize.ShloMosaic.Lib.ValueIdx
import Idealize.ShloMosaic.Lib.Pipeline.Value

noncomputable section

open Idealize.ShloMosaic Idealize.ShloMosaic.ValueIdx

namespace Cert.LibAxisZero

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

variable {α : Type}

/-- A `[1, 1]` array broadcast to `[a, b]` reads, anywhere, its one entry. -/
theorem bcast_one {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) :=
  broadcastTo_apply v h (ix2 p c) (ix2 (0 : Fin 1) (0 : Fin 1)) (fun ax => match ax with
    | ⟨0, _⟩ => by show 0 = (if (1 : ℕ) = 1 then 0 else p.val); rw [if_pos rfl]
    | ⟨1, _⟩ => by show 0 = (if (1 : ℕ) = 1 then 0 else c.val); rw [if_pos rfl])

end Cert.LibAxisZero

end
-- ==== Proof.LibMatrixReduce.lean ====
/-
  One-axis reductions of a matrix and the "kept axis" layouts that follow them, at the exact extended reals
  and at explicit coordinates.

  The sum of an `[m, n]` matrix along its second axis is, at row `r`, `Σ_c v (r, c)`; along its first axis, at
  column `c`, `Σ_k v (k, c)`; the maximum along the first axis is the fold of `max` over the column from the
  accumulator's value. A vector `[m]` recast as a column `[m, 1]` and broadcast to `[m, n]` reads the vector at
  the row; a vector `[n]` recast as a row `[1, n]` and broadcast to `[m, n]` reads it at the column.
-/
import proofs.«172682_j56401510531236_1_alg».proof.Proof.LibRows
import proofs.«172682_j56401510531236_1_alg».proof.Proof.LibAxisZero
import Idealize.ShloMosaic.Lib.ValueLayout

noncomputable section

open Idealize.ShloMosaic Idealize.ShloMosaic.ValueIdx

namespace Cert.LibMatrixReduce

/-- The sum along the second axis, at row `r`. -/
theorem rowSum_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.add.neutral .f32 hφ)
    (r : Fin m) :
    multiReduction .add [1] (⟨1, ![m]⟩ : Shape) v acc h hφ hacc (ix1 r) = ∑ c : Fin n, v (ix2 r c) := by
  rw [Ideal.multiReduction_add_single]
  exact Finset.sum_congr rfl fun k _ => congrArg v (Cert.Rows.lift_row h r k)

/-- The sum along the first axis, at column `c`. -/
theorem colSum_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.add.neutral .f32 hφ)
    (c : Fin n) :
    multiReduction .add [0] (⟨1, ![n]⟩ : Shape) v acc h hφ hacc (ix1 c) = ∑ k : Fin m, v (ix2 k c) := by
  rw [Ideal.multiReduction_add_single]
  exact Finset.sum_congr rfl fun k _ => congrArg v (Cert.LibAxisZero.lift_col h c k)

/-- The maximum along the first axis, at column `c`: `max` folded over the column from the accumulator's value. -/
theorem colMax_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.maximumf.neutral .f32 hφ)
    (c : Fin n) :
    multiReduction .maximumf [0] (⟨1, ![n]⟩ : Shape) v acc h hφ hacc (ix1 c)
      = (Finset.univ : Finset (Fin m)).fold max (Ideal.ofBits .f32 acc) (fun k => v (ix2 k c)) := by
  rw [Ideal.multiReduction_maximumf_single]
  refine congrArg (fun f => (Finset.univ : Finset (Fin m)).fold max (Ideal.ofBits .f32 acc) f) (funext fun k => ?_)
  exact congrArg v (Cert.LibAxisZero.lift_col h c k)

variable {α : Type}

/-- A vector kept as a column and broadcast along the rows' entries reads the vector at the row. -/
theorem keptCol_apply {m n : ℕ} (hm : m ≠ 1) (u : (⟨1, ![m]⟩ : Shape).Idx → α)
    (h1 : (⟨1, ![m]⟩ : Shape).ShapeCasts ⟨2, ![m, 1]⟩) (h2 : (⟨2, ![m, 1]⟩ : Shape).Broadcasts ⟨2, ![m, n]⟩) (r : Fin m) (c : Fin n) :
    broadcastTo ⟨2, ![m, n]⟩ (shapeCast ⟨2, ![m, 1]⟩ u h1) h2 (ix2 r c) = u (ix1 r) := by
  rw [Cert.Rows.bcast_col hm, Cert.Rows.cast_col]

/-- A vector kept as a row and broadcast down the rows reads the vector at the column. -/
theorem keptRow_apply {m n : ℕ} (u : (⟨1, ![n]⟩ : Shape).Idx → α)
    (h1 : (⟨1, ![n]⟩ : Shape).ShapeCasts ⟨2, ![1, n]⟩) (h2 : (⟨2, ![1, n]⟩ : Shape).Broadcasts ⟨2, ![m, n]⟩) (r : Fin m) (c : Fin n) :
    broadcastTo ⟨2, ![m, n]⟩ (shapeCast ⟨2, ![1, n]⟩ u h1) h2 (ix2 r c) = u (ix1 c) := by
  rw [broadcastTo_1b_ab_apply, shapeCast_a_1a_apply]

end Cert.LibMatrixReduce

end
-- ==== Proof.KernelDots.lean ====
/-
  The kernel's two matrix products at the exact extended reals, read at an entry.

  With a zero accumulator a `tpu.matmul` is the plain contraction. The first record contracts the second axis of
  a `[64, 512]` matrix with the first axis of a `[512, 1024]` one: entry `(k, n)` is `Σ_c l (k, c) · r (c, n)`. The
  second contracts the LAST axes of a `[64, 1024]` and a `[512, 1024]` matrix: entry `(k, c)` is
  `Σ_n l (k, n) · r (c, n)`.
-/
import proofs.«172682_j56401510531236_1_alg».proof.Proof.Gen.KernelIdeal
import Idealize.ShloMosaic.Lib.ValueIdx
import Idealize.ShloMosaic.PureOps.Ideal.Laws

noncomputable section

open Idealize.ShloMosaic Idealize.ShloMosaic.ValueIdx

namespace Cert.KernelIdeal.Dots

open Cert.KernelIdeal

/-- The product `[64, 512] · [512, 1024]`. -/
abbrev dotKN : DotDims S64x512 S512x1024 S64x1024 := dot_S64x512_S512x1024_S64x1024_1_0_0_1_n_n
/-- The product `[64, 1024] · [512, 1024]ᵀ`. -/
abbrev dotKC : DotDims S64x1024 S512x1024 S64x512 := dot_S64x1024_S512x1024_S64x512_1_1_0_0_n_n

theorem dotKN_lhs0 (i : S64x1024.Idx) (q : dotKN.contr.Idx) : (dotKN.lhsIdx i q 0).val = (i 0).val := by
  unfold DotDims.lhsIdx
  rw [dif_neg (show ¬(0 : Fin S64x512.rank) ∈ dotKN.lhsBatch by decide), dif_pos (show (0 : Fin S64x512.rank) ∈ dotKN.lhsNonContracting by decide)]
  rfl
theorem dotKN_lhs1 (i : S64x1024.Idx) (q : dotKN.contr.Idx) : (dotKN.lhsIdx i q 1).val = (q ⟨0, by decide⟩).val :=
  dotKN.lhsIdx_val_of_single rfl i q
theorem dotKN_rhs0 (i : S64x1024.Idx) (q : dotKN.contr.Idx) : (dotKN.rhsIdx i q 0).val = (q ⟨0, by decide⟩).val :=
  dotKN.rhsIdx_val_of_single rfl i q
theorem dotKN_rhs1 (i : S64x1024.Idx) (q : dotKN.contr.Idx) : (dotKN.rhsIdx i q 1).val = (i 1).val := by
  unfold DotDims.rhsIdx
  rw [dif_neg (show ¬(1 : Fin S512x1024.rank) ∈ dotKN.rhsBatch by decide), dif_pos (show (1 : Fin S512x1024.rank) ∈ dotKN.rhsNonContracting by decide)]
  rfl

/-- Entry `(k, n)` of the first product into a zero accumulator. -/
theorem matmulKN_apply (l : FVec Ideal S64x512 .bf16) (r : FVec Ideal S512x1024 .bf16) (k : Fin 64) (n : Fin 1024) :
    matmul dotKN none l r (constant (F := Ideal) S64x1024 .f32 0x00000000#32) (ix2 k n)
      = ∑ c : Fin 512, l (ix2 k c) * r (ix2 c n) := by
  simp only [matmul]
  rw [Ideal.matmul_constant_zero_apply, ← Equiv.sum_comp (contrEquiv1 dotKN 512 rfl rfl).symm]
  refine Finset.sum_congr rfl fun c _ => ?_
  have hk := contrEquiv1_symm_val dotKN 512 rfl rfl c
  have el : dotKN.lhsIdx (ix2 k n) ((contrEquiv1 dotKN 512 rfl rfl).symm c) = ix2 k c := funext fun a => Fin.ext (by
    match a with
    | ⟨0, _⟩ => exact dotKN_lhs0 _ _
    | ⟨1, _⟩ => exact (dotKN_lhs1 _ _).trans hk)
  have er : dotKN.rhsIdx (ix2 k n) ((contrEquiv1 dotKN 512 rfl rfl).symm c) = ix2 c n := funext fun a => Fin.ext (by
    match a with
    | ⟨0, _⟩ => exact (dotKN_rhs0 _ _).trans hk
    | ⟨1, _⟩ => exact dotKN_rhs1 _ _)
  rw [el, er]

theorem dotKC_lhs0 (i : S64x512.Idx) (q : dotKC.contr.Idx) : (dotKC.lhsIdx i q 0).val = (i 0).val := by
  unfold DotDims.lhsIdx
  rw [dif_neg (show ¬(0 : Fin S64x1024.rank) ∈ dotKC.lhsBatch by decide), dif_pos (show (0 : Fin S64x1024.rank) ∈ dotKC.lhsNonContracting by decide)]
  rfl
theorem dotKC_lhs1 (i : S64x512.Idx) (q : dotKC.contr.Idx) : (dotKC.lhsIdx i q 1).val = (q ⟨0, by decide⟩).val :=
  dotKC.lhsIdx_val_of_single rfl i q
theorem dotKC_rhs0 (i : S64x512.Idx) (q : dotKC.contr.Idx) : (dotKC.rhsIdx i q 0).val = (i 1).val := by
  unfold DotDims.rhsIdx
  rw [dif_neg (show ¬(0 : Fin S512x1024.rank) ∈ dotKC.rhsBatch by decide), dif_pos (show (0 : Fin S512x1024.rank) ∈ dotKC.rhsNonContracting by decide)]
  rfl
theorem dotKC_rhs1 (i : S64x512.Idx) (q : dotKC.contr.Idx) : (dotKC.rhsIdx i q 1).val = (q ⟨0, by decide⟩).val :=
  dotKC.rhsIdx_val_of_single rfl i q

/-- Entry `(k, c)` of the second product into a zero accumulator. -/
theorem matmulKC_apply (l : FVec Ideal S64x1024 .bf16) (r : FVec Ideal S512x1024 .bf16) (k : Fin 64) (c : Fin 512) :
    matmul dotKC none l r (constant (F := Ideal) S64x512 .f32 0x00000000#32) (ix2 k c)
      = ∑ n : Fin 1024, l (ix2 k n) * r (ix2 c n) := by
  simp only [matmul]
  rw [Ideal.matmul_constant_zero_apply, ← Equiv.sum_comp (contrEquiv1 dotKC 1024 rfl rfl).symm]
  refine Finset.sum_congr rfl fun n _ => ?_
  have hk := contrEquiv1_symm_val dotKC 1024 rfl rfl n
  have el : dotKC.lhsIdx (ix2 k c) ((contrEquiv1 dotKC 1024 rfl rfl).symm n) = ix2 k n := funext fun a => Fin.ext (by
    match a with
    | ⟨0, _⟩ => exact dotKC_lhs0 _ _
    | ⟨1, _⟩ => exact (dotKC_lhs1 _ _).trans hk)
  have er : dotKC.rhsIdx (ix2 k c) ((contrEquiv1 dotKC 1024 rfl rfl).symm n) = ix2 c n := funext fun a => Fin.ext (by
    match a with
    | ⟨0, _⟩ => exact dotKC_rhs0 _ _
    | ⟨1, _⟩ => exact (dotKC_rhs1 _ _).trans hk)
  rw [el, er]

end Cert.KernelIdeal.Dots

end
-- ==== Proof.KernelPay.lean ====
/-
  The kernel body's first values at the exact extended reals, entry by entry: the block of `x` with its unit
  axis dropped, the reciprocal width `1 / (sigmoid (sp) + 1e-7)`, and the logits `−½ d²`.

  `tpu.logistic` is `1 / (1 + e^(−t))` with the literal one; the reference spells the same quotient with the f32
  word of 1.0, which denotes 1. The three lane sums and matrix products are plain finite sums; rounding the
  matmul operands to bf16 is the identity here.
-/
import proofs.«172682_j56401510531236_1_alg».proof.Proof.Gen.KernelIdeal.Skeleton
import proofs.«172682_j56401510531236_1_alg».proof.Proof.Spec
import proofs.«172682_j56401510531236_1_alg».proof.Proof.LibMatrixReduce
import proofs.«172682_j56401510531236_1_alg».proof.Proof.KernelDots

noncomputable section

open Idealize.ShloMosaic Idealize.ShloMosaic.ValueIdx

namespace Cert.KernelIdeal.Pay

open Cert.KernelIdeal Cert.KernelIdeal.Gen Cert.KernelIdeal.Dots Cert.SoftAssign Cert.LibMatrixReduce

/-- The f32 word of 1.0 denotes the extended real 1. -/
theorem ofBits_one : Ideal.ofBits .f32 0x3F800000#32 = 1 := by
  simp [Ideal.ofBits, Ideal.ieee, -EReal.coe_mul]; norm_num

/-- A loaded `[1, 512, 1024]` block as a function of channel and position. -/
abbrev blockX (v0 : Vec Ideal S1x512x1024 .f32) : Fin 512 → Fin 1024 → EReal := fun c n => v0 (ix3 (0 : Fin 1) c n)
/-- A loaded `[64, 512]` table as a function of anchor and channel. -/
abbrev table (v : Vec Ideal S64x512 .f32) : Fin 64 → Fin 512 → EReal := fun k c => v (ix2 k c)

variable (v0 : Vec Ideal S1x512x1024 .f32) (v2 v3 : Vec Ideal S64x512 .f32)

theorem pay3_apply (c : Fin 512) (n : Fin 1024) : k0_pay3 (F := Ideal) v0 (ix2 c n) = blockX v0 c n :=
  shapeCast_1ab_ab_apply v0 _ c n

theorem pay5_apply (c : Fin 512) (n : Fin 1024) : k0_pay5 (F := Ideal) v0 (ix2 c n) = blockX v0 c n :=
  pay3_apply v0 c n

theorem pay4_apply (k : Fin 64) (c : Fin 512) : k0_pay4 (F := Ideal) v3 (ix2 k c) = inv (table v3) k c := by
  show Ideal.div (Ideal.ofBits .f32 0x3F800000#32) (Ideal.logistic (v3 (ix2 k c)) + eps7)
    = Ideal.div (Ideal.ofBits .f32 0x3F800000#32)
        (Ideal.div (Ideal.ofBits .f32 0x3F800000#32) (Ideal.ofBits .f32 0x3F800000#32 + Ideal.exp (-(v3 (ix2 k c)))) + eps7)
  rw [ofBits_one]
  rfl

/-- The squared reciprocal width as the kernel holds it. -/
theorem inv2_apply (k : Fin 64) (c : Fin 512) :
    mulf (k0_pay4 (F := Ideal) v3) (k0_pay4 (F := Ideal) v3) (ix2 k c) = inv2 (table v3) k c := by
  show k0_pay4 (F := Ideal) v3 (ix2 k c) * k0_pay4 (F := Ideal) v3 (ix2 k c) = _
  rw [pay4_apply]; rfl

/-! ## The logits and the soft assignment -/

/-- The kernel's logits `−½ (Σ inv²x² − 2 Σ (a inv²) x + Σ a² inv²)` as one matrix of the three loaded blocks. -/
def logits : FVec Ideal S64x1024 .f32 :=
  mulf (broadcast S64x1024 mhalf)
    (addf
      (subf
        (matmul dotKN none (truncf .bf16 (mulf (k0_pay4 (F := Ideal) v3) (k0_pay4 (F := Ideal) v3)) bitsLt_bf16_f32)
          (truncf .bf16 (mulf (k0_pay3 (F := Ideal) v0) (k0_pay3 (F := Ideal) v0)) bitsLt_bf16_f32) (constant S64x1024 .f32 0x00000000#32))
        (mulf (broadcast S64x1024 two)
          (matmul dotKN none (truncf .bf16 (mulf v2 (mulf (k0_pay4 (F := Ideal) v3) (k0_pay4 (F := Ideal) v3))) bitsLt_bf16_f32)
            (k0_pay5 (F := Ideal) v0) (constant S64x1024 .f32 0x00000000#32))))
      (broadcastTo S64x1024
        (shapeCast S64x1
          (multiReduction .add [1] S64 (mulf (mulf v2 v2) (mulf (k0_pay4 (F := Ideal) v3) (k0_pay4 (F := Ideal) v3))) 0x00000000#32
            reduces_S64x512_S64 (.inl rfl) rfl) shapeCasts_S64_S64x1) broadcasts_S64x1_S64x1024))

/-- The column maximum of the logits, kept as a row and spread over the 64 anchors. -/
def colMaxV : FVec Ideal S64x1024 .f32 :=
  broadcastTo S64x1024
    (shapeCast S1x1024 (multiReduction .maximumf [0] S1024 (logits v0 v2 v3) 0xFF800000#32 reduces_S64x1024_S1024 (.inl rfl) rfl)
      shapeCasts_S1024_S1x1024) broadcasts_S1x1024_S64x1024

/-- `exp (logit − column maximum)`. -/
def expV : FVec Ideal S64x1024 .f32 := exp (subf (logits v0 v2 v3) (colMaxV v0 v2 v3))

/-- The body's soft-assignment payload is the exponentials over their column sums. -/
theorem pay6_eq : k0_pay6 (F := Ideal) v0 v2 v3 =
    divf (expV v0 v2 v3)
      (broadcastTo S64x1024
        (shapeCast S1x1024 (multiReduction .add [0] S1024 (expV v0 v2 v3) 0x00000000#32 reduces_S64x1024_S1024 (.inl rfl) rfl)
          shapeCasts_S1024_S1x1024) broadcasts_S1x1024_S64x1024) := rfl

theorem logits_apply (k : Fin 64) (n : Fin 1024) :
    logits v0 v2 v3 (ix2 k n) = logit (blockX v0) (table v2) (table v3) k n := by
  have h1 : matmul dotKN none (truncf .bf16 (mulf (k0_pay4 (F := Ideal) v3) (k0_pay4 (F := Ideal) v3)) bitsLt_bf16_f32)
        (truncf .bf16 (mulf (k0_pay3 (F := Ideal) v0) (k0_pay3 (F := Ideal) v0)) bitsLt_bf16_f32) (constant (F := Ideal) S64x1024 .f32 0x00000000#32) (ix2 k n)
      = squareTerm (blockX v0) (table v3) k n := by
    refine (matmulKN_apply _ _ k n).trans ?_
    refine Finset.sum_congr rfl fun c _ => ?_
    show mulf (k0_pay4 (F := Ideal) v3) (k0_pay4 (F := Ideal) v3) (ix2 k c) * (k0_pay3 (F := Ideal) v0 (ix2 c n) * k0_pay3 (F := Ideal) v0 (ix2 c n)) = _
    rw [inv2_apply, pay3_apply]
  have h2 : matmul dotKN none (truncf .bf16 (mulf v2 (mulf (k0_pay4 (F := Ideal) v3) (k0_pay4 (F := Ideal) v3))) bitsLt_bf16_f32)
        (k0_pay5 (F := Ideal) v0) (constant (F := Ideal) S64x1024 .f32 0x00000000#32) (ix2 k n)
      = crossTerm (blockX v0) (table v2) (table v3) k n := by
    refine (matmulKN_apply _ _ k n).trans ?_
    refine Finset.sum_congr rfl fun c _ => ?_
    show (v2 (ix2 k c) * mulf (k0_pay4 (F := Ideal) v3) (k0_pay4 (F := Ideal) v3) (ix2 k c)) * k0_pay5 (F := Ideal) v0 (ix2 c n) = _
    rw [inv2_apply, pay5_apply]
  have h3 : broadcastTo S64x1024
        (shapeCast S64x1
          (multiReduction .add [1] S64 (mulf (mulf v2 v2) (mulf (k0_pay4 (F := Ideal) v3) (k0_pay4 (F := Ideal) v3))) 0x00000000#32
            reduces_S64x512_S64 (.inl rfl) rfl) shapeCasts_S64_S64x1) broadcasts_S64x1_S64x1024 (ix2 k n)
      = anchorTerm (table v2) (table v3) k := by
    refine (keptCol_apply (by decide) _ _ _ k n).trans ?_
    refine (rowSum_apply _ _ _ _ _ k).trans ?_
    refine Finset.sum_congr rfl fun c _ => ?_
    show (v2 (ix2 k c) * v2 (ix2 k c)) * mulf (k0_pay4 (F := Ideal) v3) (k0_pay4 (F := Ideal) v3) (ix2 k c) = _
    rw [inv2_apply]
  exact congrArg (mhalf * ·) (congrArg₂ (· + ·) (congrArg₂ (· - ·) h1 (congrArg (two * ·) h2)) h3)

theorem colMaxV_apply (k : Fin 64) (n : Fin 1024) :
    colMaxV v0 v2 v3 (ix2 k n) = colMax (blockX v0) (table v2) (table v3) n := by
  refine (keptRow_apply _ _ _ k n).trans ?_
  refine (colMax_apply _ _ _ _ _ n).trans ?_
  exact congrArg (fun f => (Finset.univ : Finset (Fin 64)).fold max ninf f) (funext fun k' => logits_apply v0 v2 v3 k' n)

theorem expV_apply (k : Fin 64) (n : Fin 1024) :
    expV v0 v2 v3 (ix2 k n) = expo (blockX v0) (table v2) (table v3) k n :=
  congrArg Ideal.exp (congrArg₂ (· - ·) (logits_apply v0 v2 v3 k n) (colMaxV_apply v0 v2 v3 k n))

/-- The soft-assignment payload, entry by entry. -/
theorem pay6_apply (k : Fin 64) (n : Fin 1024) :
    k0_pay6 (F := Ideal) v0 v2 v3 (ix2 k n) = soft (blockX v0) (table v2) (table v3) k n := by
  rw [pay6_eq]
  have hs : broadcastTo S64x1024
        (shapeCast S1x1024 (multiReduction .add [0] S1024 (expV v0 v2 v3) 0x00000000#32 reduces_S64x1024_S1024 (.inl rfl) rfl)
          shapeCasts_S1024_S1x1024) broadcasts_S1x1024_S64x1024 (ix2 k n)
      = colSum (blockX v0) (table v2) (table v3) n := by
    refine (keptRow_apply _ _ _ k n).trans ?_
    refine (colSum_apply _ _ _ _ _ n).trans ?_
    exact Finset.sum_congr rfl fun k' _ => expV_apply v0 v2 v3 k' n
  exact congrArg₂ Ideal.div (expV_apply v0 v2 v3 k n) hs

/-- The first output's payload (the soft assignment with a unit axis in front), entry by entry. -/
theorem pay1_apply (u : Fin 1) (k : Fin 64) (n : Fin 1024) :
    k0_pay1 (F := Ideal) (k0_pay6 (F := Ideal) v0 v2 v3) (ix3 u k n) = soft (blockX v0) (table v2) (table v3) k n :=
  (shapeCast_ab_1ab_apply _ _ u k n).trans (pay6_apply v0 v2 v3 k n)

end Cert.KernelIdeal.Pay

end
-- ==== Proof.KernelDescr.lean ====
/-
  The kernel body's second output at the exact extended reals, entry by entry: the aggregated residuals,
  normalised row by row and then as a whole table.

  The payload is a function of the anchors' table, the reciprocal widths, the block of `x` and the soft
  assignment; it is read here for ANY such four arrays known entry by entry. The weight of an anchor is a lane
  sum kept as a column; `Σ_n soft · x` is the matrix product contracting the positions; each row's norm is the
  square root of a lane sum, kept as a column; the table's norm sums those columns' entries over the 64 rows.
-/
import proofs.«172682_j56401510531236_1_alg».proof.Proof.Gen.KernelIdeal.Skeleton
import proofs.«172682_j56401510531236_1_alg».proof.Proof.Spec
import proofs.«172682_j56401510531236_1_alg».proof.Proof.LibMatrixReduce
import proofs.«172682_j56401510531236_1_alg».proof.Proof.KernelDots

noncomputable section

open Idealize.ShloMosaic Idealize.ShloMosaic.ValueIdx

namespace Cert.KernelIdeal.Descr

open Cert.KernelIdeal Cert.KernelIdeal.Gen Cert.KernelIdeal.Dots Cert.SoftAssign Cert.LibMatrixReduce

variable (v2 : Vec Ideal S64x512 .f32) (v8 : FVec Ideal S64x512 .f32) (v15 : FVec Ideal S512x1024 .bf16) (v37 : FVec Ideal S64x1024 .f32)

/-- An anchor's weight, as the column `[64, 1]` the kernel keeps. -/
def weightCol : FVec Ideal S64x1 .f32 :=
  shapeCast S64x1 (multiReduction .add [1] S64 v37 0x00000000#32 reduces_S64x1024_S64 (.inl rfl) rfl) shapeCasts_S64_S64x1

/-- The aggregated, width-scaled residuals. -/
def nodeV : FVec Ideal S64x512 .f32 :=
  divf
    (mulf
      (subf (matmul dotKC none (truncf .bf16 v37 bitsLt_bf16_f32) v15 (constant S64x512 .f32 0x00000000#32))
        (mulf (broadcastTo S64x512 (weightCol v37) broadcasts_S64x1_S64x512) v2))
      v8)
    (broadcastTo S64x512 (addf (weightCol v37) (broadcast S64x1 eps7)) broadcasts_S64x1_S64x512)

/-- A matrix divided, row by row, by `max (‖row‖, 1e-12)`. -/
def rowUnitV : FVec Ideal S64x512 .f32 :=
  divf (nodeV v2 v8 v15 v37)
    (broadcastTo S64x512
      (maximumf
        (sqrt (shapeCast S64x1
          (multiReduction .add [1] S64 (mulf (nodeV v2 v8 v15 v37) (nodeV v2 v8 v15 v37)) 0x00000000#32 reduces_S64x512_S64 (.inl rfl) rfl)
          shapeCasts_S64_S64x1))
        (broadcast S64x1 eps12))
      broadcasts_S64x1_S64x512)

/-- The squared norm of the whole table, as the `[1, 1]` array the kernel keeps. -/
def totalV : FVec Ideal S1x1 .f32 :=
  shapeCast S1x1
    (multiReduction .add [0] S1
      (shapeCast S64x1
        (multiReduction .add [1] S64 (mulf (rowUnitV v2 v8 v15 v37) (rowUnitV v2 v8 v15 v37)) 0x00000000#32 reduces_S64x512_S64 (.inl rfl) rfl)
        shapeCasts_S64_S64x1)
      0x00000000#32 reduces_S64x1_S1 (.inl rfl) rfl)
    shapeCasts_S1_S1x1

/-- The body's second payload: the row-normalised table over `max (‖table‖, 1e-12)`, with a unit axis in front. -/
theorem pay2_eq : k0_pay2 (F := Ideal) v2 v8 v15 v37 =
    shapeCast S1x64x512
      (divf (rowUnitV v2 v8 v15 v37)
        (broadcastTo S64x512 (maximumf (sqrt (totalV v2 v8 v15 v37)) (broadcast S1x1 eps12)) broadcasts_S1x1_S64x512))
      shapeCasts_S64x512_S1x64x512 := rfl

variable (x : Fin 512 → Fin 1024 → EReal) (a sp : Fin 64 → Fin 512 → EReal)
  (h2 : ∀ k c, v2 (ix2 k c) = a k c) (h8 : ∀ k c, v8 (ix2 k c) = inv sp k c)
  (h15 : ∀ c n, v15 (ix2 c n) = x c n) (h37 : ∀ k n, v37 (ix2 k n) = soft x a sp k n)

include h37 in
theorem weightCol_apply (k : Fin 64) : weightCol v37 (ix2 k 0) = weight x a sp k := by
  refine (Cert.Rows.cast_col _ _ k).trans ?_
  refine (rowSum_apply _ _ _ _ _ k).trans ?_
  exact Finset.sum_congr rfl fun n _ => h37 k n

include h2 h8 h15 h37 in
theorem nodeV_apply (k : Fin 64) (c : Fin 512) : nodeV v2 v8 v15 v37 (ix2 k c) = node x a sp k c := by
  have hw := weightCol_apply v37 x a sp h37 k
  have h1 : matmul dotKC none (truncf .bf16 v37 bitsLt_bf16_f32) v15 (constant (F := Ideal) S64x512 .f32 0x00000000#32) (ix2 k c)
      = weighted x a sp k c := by
    refine (matmulKC_apply _ _ k c).trans ?_
    refine Finset.sum_congr rfl fun n _ => ?_
    show v37 (ix2 k n) * v15 (ix2 c n) = _
    rw [h37, h15]
  have hb1 : broadcastTo S64x512 (weightCol v37) broadcasts_S64x1_S64x512 (ix2 k c) = weight x a sp k :=
    (Cert.Rows.bcast_col (by decide) _ _ k c).trans hw
  have hb2 : broadcastTo S64x512 (addf (weightCol v37) (broadcast S64x1 eps7)) broadcasts_S64x1_S64x512 (ix2 k c)
      = weight x a sp k + eps7 :=
    (Cert.Rows.bcast_col (by decide) _ _ k c).trans (congrArg (· + eps7) hw)
  exact congrArg₂ Ideal.div
    (congrArg₂ (· * ·) (congrArg₂ (· - ·) h1 (congrArg₂ (· * ·) hb1 (h2 k c))) (h8 k c)) hb2

include h2 h8 h15 h37 in
theorem rowUnitV_apply (k : Fin 64) (c : Fin 512) : rowUnitV v2 v8 v15 v37 (ix2 k c) = rowUnit x a sp k c := by
  have hn : broadcastTo S64x512
      (maximumf
        (sqrt (shapeCast S64x1
          (multiReduction .add [1] S64 (mulf (nodeV v2 v8 v15 v37) (nodeV v2 v8 v15 v37)) 0x00000000#32 reduces_S64x512_S64 (.inl rfl) rfl)
          shapeCasts_S64_S64x1))
        (broadcast S64x1 eps12))
      broadcasts_S64x1_S64x512 (ix2 k c) = rowNorm x a sp k := by
    refine (Cert.Rows.bcast_col (by decide) _ _ k c).trans ?_
    refine congrArg (fun t => max (Ideal.sqrt t) eps12) ?_
    refine (Cert.Rows.cast_col _ _ k).trans ?_
    refine (rowSum_apply _ _ _ _ _ k).trans ?_
    refine Finset.sum_congr rfl fun c' _ => ?_
    show nodeV v2 v8 v15 v37 (ix2 k c') * nodeV v2 v8 v15 v37 (ix2 k c') = _
    rw [nodeV_apply v2 v8 v15 v37 x a sp h2 h8 h15 h37]
  exact congrArg₂ Ideal.div (nodeV_apply v2 v8 v15 v37 x a sp h2 h8 h15 h37 k c) hn

include h2 h8 h15 h37 in
theorem totalV_apply : totalV v2 v8 v15 v37 (ix2 (0 : Fin 1) (0 : Fin 1)) = total x a sp := by
  refine (shapeCast_a_1a_apply _ _ (0 : Fin 1) (0 : Fin 1)).trans ?_
  refine (colSum_apply _ _ _ _ _ (0 : Fin 1)).trans ?_
  refine Finset.sum_congr rfl fun k _ => ?_
  refine (Cert.Rows.cast_col _ _ k).trans ?_
  refine (rowSum_apply _ _ _ _ _ k).trans ?_
  refine Finset.sum_congr rfl fun c _ => ?_
  show rowUnitV v2 v8 v15 v37 (ix2 k c) * rowUnitV v2 v8 v15 v37 (ix2 k c) = _
  rw [rowUnitV_apply v2 v8 v15 v37 x a sp h2 h8 h15 h37]

include h2 h8 h15 h37 in
/-- The second payload, entry by entry. -/
theorem pay2_apply (u : Fin 1) (k : Fin 64) (c : Fin 512) :
    k0_pay2 (F := Ideal) v2 v8 v15 v37 (ix3 u k c) = descr x a sp k c := by
  rw [pay2_eq]
  refine (shapeCast_ab_1ab_apply _ _ u k c).trans ?_
  have hg : broadcastTo S64x512 (maximumf (sqrt (totalV v2 v8 v15 v37)) (broadcast S1x1 eps12)) broadcasts_S1x1_S64x512 (ix2 k c)
      = tableNorm x a sp :=
    (Cert.LibAxisZero.bcast_one _ _ k c).trans
      (congrArg (fun t => max (Ideal.sqrt t) eps12) (totalV_apply v2 v8 v15 v37 x a sp h2 h8 h15 h37))
  exact congrArg₂ Ideal.div (rowUnitV_apply v2 v8 v15 v37 x a sp h2 h8 h15 h37 k c) hg

end Cert.KernelIdeal.Descr

end
-- ==== Proof.KernelValue.lean ====
/-
  What the idealized kernel program leaves in its two results, as whole arrays of the arguments.

  The grid has four points; point `t` reads member `t` of the batch (block `(t, 0, 0)` of the `[4, 512, 1024]`
  array the host reshape produced) and the two whole parameter tables, and writes block `(t, 0, 0)` of each output
  array. So after the run the first output array is the soft assignment of every member, the second every
  member's descriptor; the host lines after the region only re-read the second one's row-major order as
  `[4, 32768]` and then `[4, 512, 64]`.
-/
import proofs.«172682_j56401510531236_1_alg».proof.Proof.Gen.KernelIdeal.Frame
import proofs.«172682_j56401510531236_1_alg».proof.Proof.KernelPay
import proofs.«172682_j56401510531236_1_alg».proof.Proof.KernelDescr
import Idealize.ShloMosaic.Lib.Pipeline.Value
import Idealize.ShloMosaic.Lib.StableHlo.Run

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen Cert.SoftAssign Cert.KernelIdeal.Pay
open Idealize.ShloMosaic.Pipeline (Dat)

variable (m : (ℓ : Loc nD τ sig) → Buf (Elt Ideal) ℓ) (ρ : Dev nD → PrngReg)

/-- The batch as the region finds it, and the two parameter tables. -/
abbrev arrX (c : Dev nD) : (⟨3, ![4, 512, 1024]⟩ : Shape).Idx → EReal := V m c main_v0
abbrev arrA (c : Dev nD) : (⟨2, ![64, 512]⟩ : Shape).Idx → EReal := V m c main_arg1
abbrev arrS (c : Dev nD) : (⟨2, ![64, 512]⟩ : Shape).Idx → EReal := V m c main_arg2

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the batched windows sit at block `(t, 0, 0)`, the tables at `(0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The batch member a grid point works on. -/
def memberOf (t : Fin cfg0.N) : Fin 4 := ⟨t.val, lt_of_lt_of_eq t.isLt N_0⟩

/-- The grid point that works on a batch member. -/
def pointOf (b : Fin 4) : Fin cfg0.N := ⟨b.val, lt_of_lt_of_eq b.isLt N_0.symm⟩

/-- Point `t`'s block of the batch is member `t`. -/
theorem read0 (c : Dev nD) (t : Fin cfg0.N) (u : Fin 1) (c' : Fin 512) (n : Fin 1024) :
    iblk m c 0 t (ix3 u c' n) = arrX m c (ix3 (memberOf t) c' n) := by
  obtain ⟨e0, e1, e2, -⟩ := idx_facts t
  show V m c main_v0 (((cfg0.win 0).blk t).view.emb (ix3 u c' n)) = V m c main_v0 (ix3 (memberOf t) c' n)
  refine congrArg (V m c main_v0) (funext fun a => Fin.ext ?_)
  match a with
  | ⟨0, _⟩ => show win0_0.index t (0 : Fin 3) * 1 + 1 * u.val = t.val; have := u.isLt; omega
  | ⟨1, _⟩ => show win0_0.index t (1 : Fin 3) * 512 + 1 * c'.val = c'.val; omega
  | ⟨2, _⟩ => show win0_0.index t (2 : Fin 3) * 1024 + 1 * n.val = n.val; omega

/-- Every point's block of a parameter table is the whole table. -/
theorem read1 (c : Dev nD) (t : Fin cfg0.N) (k : Fin 64) (c' : Fin 512) :
    iblk m c 1 t (ix2 k c') = arrA m c (ix2 k c') := by
  obtain ⟨-, -, -, e0, e1, -⟩ := idx_facts t
  show V m c main_arg1 (((cfg0.win 1).blk t).view.emb (ix2 k c')) = V m c main_arg1 (ix2 k c')
  refine congrArg (V m c main_arg1) (funext fun a => Fin.ext ?_)
  match a with
  | ⟨0, _⟩ => show win0_1.index t (0 : Fin 2) * 64 + 1 * k.val = k.val; omega
  | ⟨1, _⟩ => show win0_1.index t (1 : Fin 2) * 512 + 1 * c'.val = c'.val; omega

theorem read2 (c : Dev nD) (t : Fin cfg0.N) (k : Fin 64) (c' : Fin 512) :
    iblk m c 2 t (ix2 k c') = arrS m c (ix2 k c') := by
  obtain ⟨-, -, -, -, -, e0, e1, -⟩ := idx_facts t
  show V m c main_arg2 (((cfg0.win 2).blk t).view.emb (ix2 k c')) = V m c main_arg2 (ix2 k c')
  refine congrArg (V m c main_arg2) (funext fun a => Fin.ext ?_)
  match a with
  | ⟨0, _⟩ => show win0_2.index t (0 : Fin 2) * 64 + 1 * k.val = k.val; omega
  | ⟨1, _⟩ => show win0_2.index t (1 : Fin 2) * 512 + 1 * c'.val = c'.val; omega

theorem blockX_iblk (c : Dev nD) (t : Fin cfg0.N) : blockX (iblk m c 0 t) = member (arrX m c) (memberOf t) :=
  funext fun c' => funext fun n => read0 m c t 0 c' n
theorem table_iblk1 (c : Dev nD) (t : Fin cfg0.N) : table (iblk m c 1 t) = tableOf (arrA m c) :=
  funext fun k => funext fun c' => read1 m c t k c'
theorem table_iblk2 (c : Dev nD) (t : Fin cfg0.N) : table (iblk m c 2 t) = tableOf (arrS m c) :=
  funext fun k => funext fun c' => read2 m c t k c'

/-! ## What a point writes back -/

/-- Point `t` writes back, to the first output array, block `t` of the soft-assignment array. -/
theorem flushed3_eq (c : Dev nD) (t : Fin cfg0.N) :
    (dats m 0 c).flushed 3 t = ((cfg0.win 3).blk t).view.read (Elt Ideal) (softArr (arrX m c) (arrA m c) (arrS m c)) := by
  show (cfg0.win 3).cut (grid0.coords t) ((dats m 0 c).after 3 t) = _
  rw [after0_3]
  unfold out0_3
  rw [View.canon_unit_zero hz3]
  simp only [View.ld_unit_zero (S := S1x512x1024) hz3, View.ld_unit_zero (S := S64x512) hz2]
  obtain ⟨-, -, -, -, -, -, -, e0, e1, e2, -⟩ := idx_facts t
  funext j
  obtain ⟨u, k, n, rfl⟩ : ∃ (u : Fin 1) (k : Fin 64) (n : Fin 1024), j = ix3 u k n := ⟨j 0, j 1, j 2, eq_ix3 j⟩
  show k0_pay1 (F := Ideal) (k0_pay6 (F := Ideal) (iblk m c 0 t) (iblk m c 1 t) (iblk m c 2 t)) (ix3 u k n)
    = softArr (arrX m c) (arrA m c) (arrS m c) (((cfg0.win 3).blk t).view.emb (ix3 u k n))
  have hemb : ((cfg0.win 3).blk t).view.emb (ix3 u k n) = ix3 (memberOf t) k n := funext fun a => Fin.ext (by
    match a with
    | ⟨0, _⟩ => show win0_3.index t (0 : Fin 3) * 1 + 1 * u.val = t.val; have := u.isLt; omega
    | ⟨1, _⟩ => show win0_3.index t (1 : Fin 3) * 64 + 1 * k.val = k.val; omega
    | ⟨2, _⟩ => show win0_3.index t (2 : Fin 3) * 1024 + 1 * n.val = n.val; omega)
  rw [hemb]
  refine (pay1_apply _ _ _ u k n).trans ?_
  rw [blockX_iblk, table_iblk1, table_iblk2]
  rfl

/-- Point `t` writes back, to the second output array, block `t` of the descriptor array. -/
theorem flushed4_eq (c : Dev nD) (t : Fin cfg0.N) :
    (dats m 0 c).flushed 4 t = ((cfg0.win 4).blk t).view.read (Elt Ideal) (descrArr (arrX m c) (arrA m c) (arrS m c)) := by
  show (cfg0.win 4).cut (grid0.coords t) ((dats m 0 c).after 4 t) = _
  rw [after0_4]
  unfold out0_4
  rw [View.canon_unit_zero hz3]
  simp only [View.ld_unit_zero (S := S1x512x1024) hz3, View.ld_unit_zero (S := S64x512) hz2]
  obtain ⟨-, -, -, -, -, -, -, -, -, -, e0, e1, e2⟩ := idx_facts t
  funext j
  obtain ⟨u, k, c', rfl⟩ : ∃ (u : Fin 1) (k : Fin 64) (c' : Fin 512), j = ix3 u k c' := ⟨j 0, j 1, j 2, eq_ix3 j⟩
  show k0_pay2 (F := Ideal) (iblk m c 1 t) (k0_pay4 (F := Ideal) (iblk m c 2 t)) (k0_pay5 (F := Ideal) (iblk m c 0 t))
      (k0_pay6 (F := Ideal) (iblk m c 0 t) (iblk m c 1 t) (iblk m c 2 t)) (ix3 u k c')
    = descrArr (arrX m c) (arrA m c) (arrS m c) (((cfg0.win 4).blk t).view.emb (ix3 u k c'))
  have hemb : ((cfg0.win 4).blk t).view.emb (ix3 u k c') = ix3 (memberOf t) k c' := funext fun a => Fin.ext (by
    match a with
    | ⟨0, _⟩ => show win0_4.index t (0 : Fin 3) * 1 + 1 * u.val = t.val; have := u.isLt; omega
    | ⟨1, _⟩ => show win0_4.index t (1 : Fin 3) * 64 + 1 * k.val = k.val; omega
    | ⟨2, _⟩ => show win0_4.index t (2 : Fin 3) * 512 + 1 * c'.val = c'.val; omega)
  rw [hemb]
  refine (Cert.KernelIdeal.Descr.pay2_apply _ _ _ _ (blockX (iblk m c 0 t)) (table (iblk m c 1 t)) (table (iblk m c 2 t))
    (fun _ _ => rfl) (fun k₁ c₁ => pay4_apply _ k₁ c₁) (fun c₁ n₁ => pay5_apply _ c₁ n₁) (fun k₁ n₁ => pay6_apply _ _ _ k₁ n₁) u k c').trans ?_
  rw [blockX_iblk, table_iblk1, table_iblk2]
  rfl

/-! ## The arrays after the run -/

theorem mem_blk3 (t : Fin cfg0.N) (i : S4x64x1024.Idx) :
    i ∈ ((cfg0.win 3).blk t).view.set ↔ ∀ a : Fin 3, win0_3.index t a * S1x64x1024.size a ≤ (i a).val ∧ (i a).val < win0_3.index t a * S1x64x1024.size a + S1x64x1024.size a := by
  show i ∈ ((View.whole main_v1_0).slice (win0_3.rect t)).set ↔ _
  rw [View.set_slice_whole, Rect.mem_set_unit]
  exact Iff.rfl

theorem mem_blk4 (t : Fin cfg0.N) (i : S4x64x512.Idx) :
    i ∈ ((cfg0.win 4).blk t).view.set ↔ ∀ a : Fin 3, win0_4.index t a * S1x64x512.size a ≤ (i a).val ∧ (i a).val < win0_4.index t a * S1x64x512.size a + S1x64x512.size a := by
  show i ∈ ((View.whole main_v1_1).slice (win0_4.rect t)).set ↔ _
  rw [View.set_slice_whole, Rect.mem_set_unit]
  exact Iff.rfl

/-- Every entry `(b, k, n)` of the first output array lies in point `b`'s block. -/
theorem cover3 (i : S4x64x1024.Idx) : ∃ t : Fin cfg0.N, (cfg0.win 3).flush t = true ∧ i ∈ ((cfg0.win 3).blk t).view.set := by
  have h0 : (i 0).val < 4 := (i 0).isLt
  have h1 : (i 1).val < 64 := (i 1).isLt
  have h2 : (i 2).val < 1024 := (i 2).isLt
  refine ⟨pointOf ⟨(i 0).val, h0⟩, flush0_3 _, ?_⟩
  obtain ⟨-, -, -, -, -, -, -, e0, e1, e2, -⟩ := idx_facts (pointOf ⟨(i 0).val, h0⟩)
  have ev : (pointOf ⟨(i 0).val, h0⟩).val = (i 0).val := rfl
  rw [mem_blk3]
  intro a
  match a with
  | ⟨0, _⟩ => show win0_3.index (pointOf ⟨(i 0).val, h0⟩) (0 : Fin 3) * 1 ≤ (i 0).val ∧ (i 0).val < win0_3.index (pointOf ⟨(i 0).val, h0⟩) (0 : Fin 3) * 1 + 1; omega
  | ⟨1, _⟩ => show win0_3.index (pointOf ⟨(i 0).val, h0⟩) (1 : Fin 3) * 64 ≤ (i 1).val ∧ (i 1).val < win0_3.index (pointOf ⟨(i 0).val, h0⟩) (1 : Fin 3) * 64 + 64; omega
  | ⟨2, _⟩ => show win0_3.index (pointOf ⟨(i 0).val, h0⟩) (2 : Fin 3) * 1024 ≤ (i 2).val ∧ (i 2).val < win0_3.index (pointOf ⟨(i 0).val, h0⟩) (2 : Fin 3) * 1024 + 1024; omega

theorem cover4 (i : S4x64x512.Idx) : ∃ t : Fin cfg0.N, (cfg0.win 4).flush t = true ∧ i ∈ ((cfg0.win 4).blk t).view.set := by
  have h0 : (i 0).val < 4 := (i 0).isLt
  have h1 : (i 1).val < 64 := (i 1).isLt
  have h2 : (i 2).val < 512 := (i 2).isLt
  refine ⟨pointOf ⟨(i 0).val, h0⟩, flush0_4 _, ?_⟩
  obtain ⟨-, -, -, -, -, -, -, -, -, -, e0, e1, e2⟩ := idx_facts (pointOf ⟨(i 0).val, h0⟩)
  have ev : (pointOf ⟨(i 0).val, h0⟩).val = (i 0).val := rfl
  rw [mem_blk4]
  intro a
  match a with
  | ⟨0, _⟩ => show win0_4.index (pointOf ⟨(i 0).val, h0⟩) (0 : Fin 3) * 1 ≤ (i 0).val ∧ (i 0).val < win0_4.index (pointOf ⟨(i 0).val, h0⟩) (0 : Fin 3) * 1 + 1; omega
  | ⟨1, _⟩ => show win0_4.index (pointOf ⟨(i 0).val, h0⟩) (1 : Fin 3) * 64 ≤ (i 1).val ∧ (i 1).val < win0_4.index (pointOf ⟨(i 0).val, h0⟩) (1 : Fin 3) * 64 + 64; omega
  | ⟨2, _⟩ => show win0_4.index (pointOf ⟨(i 0).val, h0⟩) (2 : Fin 3) * 512 ≤ (i 2).val ∧ (i 2).val < win0_4.index (pointOf ⟨(i 0).val, h0⟩) (2 : Fin 3) * 512 + 512; omega

/-- The first output array after the run: every member's soft assignment. -/
theorem final3 (c : Dev nD) : (dats m 0 c).arrAt 3 cfg0.N = softArr (arrX m c) (arrA m c) (arrS m c) :=
  (dats m 0 c).arrAt_eq_of_cover 3 (softArr (arrX m c) (arrA m c) (arrS m c)) (fun t _ => flushed3_eq m c t) cover3

/-- The second output array after the run: every member's descriptor. -/
theorem final4 (c : Dev nD) : (dats m 0 c).arrAt 4 cfg0.N = descrArr (arrX m c) (arrA m c) (arrS m c) :=
  (dats m 0 c).arrAt_eq_of_cover 4 (descrArr (arrX m c) (arrA m c) (arrS m c)) (fun t _ => flushed4_eq m c t) cover4

/-! ## The host lines around the region, and the run -/

/-- The batch the region finds is the launch's `x` re-read as `[4, 512, 1024]`. -/
theorem arrX_eq (c : Dev nD) :
    arrX m c = shapeCast S4x512x1024 (m ((c.tc : Thread nD τ).loc main_arg0)) shapeCasts_S4x512x32x32_S4x512x1024 := by
  show StableHlo.after hostOps0 (fun b => m (c, b)) (Proc.devRef .tc main_v0) = _
  after_results
  rfl

/-- The program's first result: the second output array re-read as `[4, 32768]`, then as `[4, 512, 64]`. -/
theorem tail_v3 (c : Dev nD) :
    Pipeline.afterTail₀ cfgs (dats m) 0 (V0 m) [hostOps1] c main_v3
      = shapeCast S4x512x64 (shapeCast S4x32768 (descrArr (arrX m c) (arrA m c) (arrS m c)) shapeCasts_S4x64x512_S4x32768)
          shapeCasts_S4x32768_S4x512x64 := by
  unfold Pipeline.afterTail₀
  show StableHlo.after hostOps1 _ (Proc.devRef .tc main_v3) = _
  after_results
  rw [Pipeline.withArrays_arr spec0 launch0.win.arr_inj c _ _ 4, final4]
  rfl

/-- THE RUN of the idealized kernel program: both results as whole arrays of the launch's arguments. -/
theorem run : θ_run defs (onTc (τ := τ) (main (F := Ideal))) ⟨m, fun _ => 0, ρ⟩ fun r => ∀ c : Dev nD,
      r.2.mem ((c.tc : Thread nD τ).loc main_v3)
        = shapeCast S4x512x64 (shapeCast S4x32768 (descrArr (arrX m c) (arrA m c) (arrS m c)) shapeCasts_S4x64x512_S4x32768)
            shapeCasts_S4x32768_S4x512x64
      ∧ r.2.mem ((c.tc : Thread nD τ).loc main_v1_0) = softArr (arrX m c) (arrA m c) (arrS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_v3 m c),
      ((h c).1 3).trans (final3 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Val

end
-- ==== Proof.RefSoft.lean ====
/-
  The reference's stages up to the soft assignment, at the exact extended reals, entry by entry.

  The reference works on the whole batch at once: `x` reshaped to `[4, 512, 1024]` and transposed to
  `[4, 1024, 512]`, the three terms of the squared distance by two `dot_general`s over the channels and one row
  sum, and jax's softmax over the anchor axis (maximum, exponential, sum, quotient). Read at batch member `b`,
  every stage is the specification's function of member `b` and the two tables. The host sums start from the
  word of `0.0`, which denotes 0; the softmax's extra `max (−∞, ·)` changes nothing.
-/
import proofs.«172682_j56401510531236_1_alg».proof.Proof.RefRead
import proofs.«172682_j56401510531236_1_alg».proof.Proof.Spec
import proofs.«172682_j56401510531236_1_alg».proof.Proof.LibRows

noncomputable section

open Idealize.ShloMosaic Idealize.ShloMosaic.ValueIdx

namespace Cert.ReferenceIdeal.Stages

open Cert.ReferenceIdeal Cert.ReferenceIdeal.Gen Cert.ReferenceIdeal.Read Cert.SoftAssign

/-- Two indices of a rank-3 (rank-2, rank-1) shape with the same coordinates are equal. -/
macro "idx3" : tactic =>
  `(tactic| exact funext fun a => Fin.ext (by match a with | ⟨0, _⟩ => rfl | ⟨1, _⟩ => rfl | ⟨2, _⟩ => rfl))
macro "idx2" : tactic =>
  `(tactic| exact funext fun a => Fin.ext (by match a with | ⟨0, _⟩ => rfl | ⟨1, _⟩ => rfl))
macro "idx1" : tactic =>
  `(tactic| exact funext fun a => Fin.ext (by match a with | ⟨0, _⟩ => rfl))

/-- Row `(b, n)` of a `[a, m, n]` array reduced over its middle axis, with `k` put back, is `(b, k, n)`. -/
theorem lift_mid {a m n : ℕ} (h : (⟨3, ![a, m, n]⟩ : Shape).Reduces [1] (⟨2, ![a, n]⟩ : Shape)) (b : Fin a) (c : Fin n)
    (k : Fin ((⟨3, ![a, m, n]⟩ : Shape).size 1)) : h.lift (ix2 b c) k = ix3 b (⟨k.val, k.isLt⟩ : Fin m) c := by
  funext d; apply Fin.ext
  fin_cases d <;> rfl

variable (x0 : (⟨S4x512x32x32, .f32⟩ : BufTy).Contents (Elt Ideal)) (x1 x2 : (⟨S64x512, .f32⟩ : BufTy).Contents (Elt Ideal))

/-- The batch as a `[4, 512, 1024]` array. -/
abbrev batch : (⟨3, ![4, 512, 1024]⟩ : Shape).Idx → EReal := val_main_v0 (F := Ideal) x0

theorem inv_at (k : Fin 64) (c : Fin 512) : val_main_v11 (F := Ideal) x2 (ix2 k c) = inv (tableOf x2) k c := by
  show Ideal.div (val_main_v10 (F := Ideal) (ix2 k c))
      (Ideal.div (val_main_v6 (F := Ideal) (ix2 k c)) (val_main_v4 (F := Ideal) (ix2 k c) + Ideal.exp (-(x2 (ix2 k c))))
        + val_main_v8 (F := Ideal) (ix2 k c)) = _
  rw [val_main_v10_apply, val_main_cst_2_apply, val_main_v6_apply, val_main_cst_0_apply, val_main_v4_apply, val_main_cst_apply,
    val_main_v8_apply, val_main_cst_1_apply]
  rfl

theorem inv2_at (k : Fin 64) (c : Fin 512) : val_main_v12 (F := Ideal) x2 (ix2 k c) = inv2 (tableOf x2) k c := by
  show val_main_v11 (F := Ideal) x2 (ix2 k c) * val_main_v11 (F := Ideal) x2 (ix2 k c) = _
  rw [inv_at]; rfl

/-- The transposed batch at `(b, n, c)` is member `b` at channel `c`, position `n`. -/
theorem xT_at (b : Fin 4) (n : Fin 1024) (c : Fin 512) :
    val_main_v1 (F := Ideal) x0 (ix3 b n c) = member (batch x0) b c n := by
  rw [val_main_v1_apply]
  exact congrArg (val_main_v0 (F := Ideal) x0) (by idx3)

theorem squareTerm_at (b : Fin 4) (k : Fin 64) (n : Fin 1024) :
    val_main_v15 (F := Ideal) x0 x2 (ix3 b k n) = squareTerm (member (batch x0) b) (tableOf x2) k n := by
  rw [val_main_v15_apply, show idx_main_v15 (ix3 b k n) = ix3 k b n from by idx3, val_main_v14_apply]
  refine Finset.sum_congr rfl fun c _ => ?_
  rw [show lidx_main_v14 (ix3 k b n) c = ix2 k c from by idx2, show ridx_main_v14 (ix3 k b n) c = ix3 b n c from by idx3, inv2_at]
  show _ * (val_main_v1 (F := Ideal) x0 (ix3 b n c) * val_main_v1 (F := Ideal) x0 (ix3 b n c)) = _
  rw [xT_at]

theorem crossTerm_at (b : Fin 4) (k : Fin 64) (n : Fin 1024) :
    val_main_v18 (F := Ideal) x0 x1 x2 (ix3 b k n) = crossTerm (member (batch x0) b) (tableOf x1) (tableOf x2) k n := by
  rw [val_main_v18_apply, show idx_main_v18 (ix3 b k n) = ix3 k b n from by idx3, val_main_v17_apply]
  refine Finset.sum_congr rfl fun c _ => ?_
  rw [show lidx_main_v17 (ix3 k b n) c = ix2 k c from by idx2, show ridx_main_v17 (ix3 k b n) c = ix3 b n c from by idx3, xT_at]
  show (x1 (ix2 k c) * val_main_v12 (F := Ideal) x2 (ix2 k c)) * _ = _
  rw [inv2_at]; rfl

theorem anchorTerm_at (b : Fin 4) (k : Fin 64) (n : Fin 1024) :
    val_main_v26 (F := Ideal) x1 x2 (ix3 b k n) = anchorTerm (tableOf x1) (tableOf x2) k := by
  rw [val_main_v26_apply, val_main_v25_apply, val_main_v24_apply, val_main_cst_4_apply]
  show Ideal.ofBits .f32 0x00000000#32 + _ = _
  rw [Ideal.ofBits_zero_f32, zero_add]
  refine Finset.sum_congr rfl fun c _ => ?_
  rw [show idx_main_v24 (idx_main_v25 (idx_main_v26 (ix3 b k n))) c = ix2 k c from by idx2]
  show (x1 (ix2 k c) * x1 (ix2 k c)) * val_main_v12 (F := Ideal) x2 (ix2 k c) = _
  rw [inv2_at]; rfl

theorem logit_at (b : Fin 4) (k : Fin 64) (n : Fin 1024) :
    val_main_v29 (F := Ideal) x0 x1 x2 (ix3 b k n) = logit (member (batch x0) b) (tableOf x1) (tableOf x2) k n := by
  show val_main_v28 (F := Ideal) (ix3 b k n)
      * ((val_main_v15 (F := Ideal) x0 x2 (ix3 b k n) - val_main_v19 (F := Ideal) (ix3 b k n) * val_main_v18 (F := Ideal) x0 x1 x2 (ix3 b k n))
        + val_main_v26 (F := Ideal) x1 x2 (ix3 b k n)) = _
  rw [val_main_v28_apply, val_main_cst_5_apply, val_main_v19_apply, val_main_cst_3_apply, squareTerm_at, crossTerm_at, anchorTerm_at]
  rfl

theorem colMax_at (b : Fin 4) (n : Fin 1024) :
    val_main_v32 (F := Ideal) x0 x1 x2 (ix2 b n) = colMax (member (batch x0) b) (tableOf x1) (tableOf x2) n := by
  show max (val_main_v31 (F := Ideal) (ix2 b n)) (val_main_v30 (F := Ideal) x0 x1 x2 (ix2 b n)) = _
  rw [val_main_v31_apply, val_main_cst_7_apply]
  show max (Ideal.ofBits .f32 0xFF800000#32) _ = _
  rw [Cert.Rows.neg_inf_max]
  unfold val_main_v30
  refine (Host.reduce_eq_fold_single FloatOps.maximumf _ _ reducesTo_S4x64x1024_S4x1024_d1 (by decide) h_S_ (ix2 b n)).trans ?_
  refine congrArg (fun f => (Finset.univ : Finset (Fin 64)).fold max ninf f) (funext fun k => ?_)
  show val_main_v29 (F := Ideal) x0 x1 x2 ((by decide : S4x64x1024.Reduces [1] S4x1024).lift (ix2 b n) k) = _
  rw [lift_mid]
  exact logit_at x0 x1 x2 b k n

theorem expo_at (b : Fin 4) (k : Fin 64) (n : Fin 1024) :
    val_main_v36 (F := Ideal) x0 x1 x2 (ix3 b k n) = expo (member (batch x0) b) (tableOf x1) (tableOf x2) k n := by
  show Ideal.exp (val_main_v29 (F := Ideal) x0 x1 x2 (ix3 b k n) - val_main_v34 (F := Ideal) x0 x1 x2 (ix3 b k n)) = _
  rw [val_main_v34_apply, val_main_v33_apply, show idx_main_v33 (idx_main_v34 (ix3 b k n)) = ix2 b n from by idx2, logit_at, colMax_at]
  rfl

theorem colSum_at (b : Fin 4) (k : Fin 64) (n : Fin 1024) :
    val_main_v39 (F := Ideal) x0 x1 x2 (ix3 b k n) = colSum (member (batch x0) b) (tableOf x1) (tableOf x2) n := by
  rw [val_main_v39_apply, val_main_v38_apply, val_main_v37_apply, val_main_cst_8_apply]
  show Ideal.ofBits .f32 0x00000000#32 + _ = _
  rw [Ideal.ofBits_zero_f32, zero_add]
  refine Finset.sum_congr rfl fun k' _ => ?_
  rw [show idx_main_v37 (idx_main_v38 (idx_main_v39 (ix3 b k n))) k' = ix3 b k' n from by idx3]
  exact expo_at x0 x1 x2 b k' n

/-- The reference's second result at `(b, k, n)`: member `b`'s soft assignment. -/
theorem soft_at (b : Fin 4) (k : Fin 64) (n : Fin 1024) :
    val_main_v40 (F := Ideal) x0 x1 x2 (ix3 b k n) = soft (member (batch x0) b) (tableOf x1) (tableOf x2) k n := by
  show Ideal.div (val_main_v36 (F := Ideal) x0 x1 x2 (ix3 b k n)) (val_main_v39 (F := Ideal) x0 x1 x2 (ix3 b k n)) = _
  rw [expo_at, colSum_at]
  rfl

/-- As a whole array. -/
theorem softArr_eq : val_main_v40 (F := Ideal) x0 x1 x2 = softArr (batch x0) x1 x2 :=
  funext fun i => (congrArg (val_main_v40 (F := Ideal) x0 x1 x2) (eq_ix3 i)).trans (soft_at x0 x1 x2 (i 0) (i 1) (i 2))

end Cert.ReferenceIdeal.Stages

end
-- ==== Proof.LibERealSums.lean ====
/-
  General facts about finite sums and maxima of real numbers read inside the extended reals, and the
  splitting of a sum over `Fin (m * n)` into `m` consecutive blocks of `n` terms.
-/
import Mathlib.Data.EReal.Operations
import Mathlib.Algebra.BigOperators.Fin
import Mathlib.Data.Finset.Fold
import Mathlib.Logic.Equiv.Fin.Basic

namespace Cert.LibERealSums

open Finset

/-- The coercion of a finite sum of reals is the sum of the coercions: every partial sum is finite, so
    no infinity is ever met. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of extended reals each of which is (the coercion of) a real is the coercion of the real sum. -/
theorem sum_eq_coe {ι : Type*} (s : Finset ι) (g : ι → EReal) (f : ι → ℝ) (h : ∀ i ∈ s, g i = (f i : EReal)) :
    ∑ i ∈ s, g i = ((∑ i ∈ s, f i : ℝ) : EReal) := by
  rw [coe_finset_sum]
  exact Finset.sum_congr rfl h

/-- The maximum of a nonempty finite family of reals, folded from minus infinity inside the extended
    reals, is a real: it is at least one member of the family, hence not `⊥`, and every member and the
    start value are below `⊤`, hence it is not `⊤`. -/
theorem fold_max_bot_coe {ι : Type*} (s : Finset ι) (hs : s.Nonempty) (f : ι → ℝ) :
    ∃ m : ℝ, s.fold max (⊥ : EReal) (fun i => (f i : EReal)) = (m : EReal) := by
  obtain ⟨i₀, hi₀⟩ := hs
  have hlt : s.fold max (⊥ : EReal) (fun i => (f i : EReal)) < ⊤ :=
    (Finset.fold_max_lt _).mpr ⟨bot_lt_top, fun x _ => EReal.coe_lt_top (f x)⟩
  have hge : ((f i₀ : ℝ) : EReal) ≤ s.fold max (⊥ : EReal) (fun i => (f i : EReal)) :=
    (Finset.le_fold_max _).mpr (Or.inr ⟨i₀, hi₀, le_refl _⟩)
  have hne_bot : s.fold max (⊥ : EReal) (fun i => (f i : EReal)) ≠ ⊥ :=
    ne_of_gt (lt_of_lt_of_le (EReal.bot_lt_coe (f i₀)) hge)
  exact ⟨_, (EReal.coe_toReal (ne_of_lt hlt) hne_bot).symm⟩

/-- A sum over `Fin N`, with `N = m * n`, is the sum over the `m` blocks of `n` consecutive indices:
    `row k r` is the index `n * k + r`. -/
theorem sum_fin_blocks {M : Type*} [AddCommMonoid M] {m n N : ℕ} (hN : m * n = N)
    (row : Fin m → Fin n → Fin N) (hrow : ∀ k r, (row k r).val = n * k.val + r.val) (f : Fin N → M) :
    ∑ c : Fin N, f c = ∑ k : Fin m, ∑ r : Fin n, f (row k r) := by
  subst hN
  rw [← Equiv.sum_comp finProdFinEquiv f, Fintype.sum_prod_type]
  refine Finset.sum_congr rfl fun k _ => Finset.sum_congr rfl fun r _ => ?_
  refine congrArg f (Fin.ext ?_)
  rw [hrow k r]
  exact Nat.add_comm _ _

end Cert.LibERealSums
-- ==== Proof.RefDescr.lean ====
/-
  The reference's stages from the soft assignment to the doubly normalised descriptor, entry by entry.

  The weight of an anchor is a host sum over the positions; `Σ_n soft · x` a batched `dot_general`; the first
  norm a sum over the channels, kept as a unit axis; the second norm is taken of each member's `[64, 512]` table
  re-read in row-major order as one row of 32768 entries, whose sum of squares is the sum over the 64 rows of the
  rows' sums.
-/
import proofs.«172682_j56401510531236_1_alg».proof.Proof.RefSoft
import proofs.«172682_j56401510531236_1_alg».proof.Proof.LibERealSums

noncomputable section

open Idealize.ShloMosaic Idealize.ShloMosaic.ValueIdx

namespace Cert.ReferenceIdeal.Stages

open Cert.ReferenceIdeal Cert.ReferenceIdeal.Gen Cert.ReferenceIdeal.Read Cert.SoftAssign

variable (x0 : (⟨S4x512x32x32, .f32⟩ : BufTy).Contents (Elt Ideal)) (x1 x2 : (⟨S64x512, .f32⟩ : BufTy).Contents (Elt Ideal))

theorem weight_at (b : Fin 4) (k : Fin 64) :
    val_main_v41 (F := Ideal) x0 x1 x2 (ix2 b k) = weight (member (batch x0) b) (tableOf x1) (tableOf x2) k := by
  rw [val_main_v41_apply, val_main_cst_9_apply]
  show Ideal.ofBits .f32 0x00000000#32 + _ = _
  rw [Ideal.ofBits_zero_f32, zero_add]
  refine Finset.sum_congr rfl fun n _ => ?_
  rw [show idx_main_v41 (ix2 b k) n = ix3 b k n from by idx3]
  exact soft_at x0 x1 x2 b k n

theorem weighted_at (b : Fin 4) (k : Fin 64) (c : Fin 512) :
    val_main_v42 (F := Ideal) x0 x1 x2 (ix3 b k c) = weighted (member (batch x0) b) (tableOf x1) (tableOf x2) k c := by
  rw [val_main_v42_apply]
  refine Finset.sum_congr rfl fun n _ => ?_
  rw [show lidx_main_v42 (ix3 b k c) n = ix3 b k n from by idx3, show ridx_main_v42 (ix3 b k c) n = ix3 b n c from by idx3,
    soft_at, xT_at]

theorem node_at (b : Fin 4) (k : Fin 64) (c : Fin 512) :
    val_main_v56 (F := Ideal) x0 x1 x2 (ix3 b k c) = node (member (batch x0) b) (tableOf x1) (tableOf x2) k c := by
  show Ideal.div
      ((val_main_v42 (F := Ideal) x0 x1 x2 (ix3 b k c)
          - val_main_v45 (F := Ideal) x0 x1 x2 (ix3 b k c) * val_main_v46 (F := Ideal) x1 (ix3 b k c))
        * val_main_v50 (F := Ideal) x2 (ix3 b k c))
      (val_main_v55 (F := Ideal) x0 x1 x2 (ix3 b k c)) = _
  rw [val_main_v45_apply, val_main_v43_apply, show idx_main_v43 (idx_main_v45 (ix3 b k c)) = ix2 b k from by idx2,
    val_main_v46_apply, val_main_v44_apply, show idx_main_v44 (idx_main_v46 (ix3 b k c)) = ix2 k c from by idx2,
    val_main_v50_apply, val_main_v49_apply, show idx_main_v49 (idx_main_v50 (ix3 b k c)) = ix2 k c from by idx2,
    val_main_v55_apply]
  show Ideal.div _ (val_main_v52 (F := Ideal) x0 x1 x2 (idx_main_v55 (ix3 b k c)) + val_main_v53 (F := Ideal) (idx_main_v55 (ix3 b k c))) = _
  rw [val_main_v52_apply, show idx_main_v52 (idx_main_v55 (ix3 b k c)) = ix2 b k from by idx2, val_main_v53_apply, val_main_cst_10_apply,
    weighted_at, weight_at, inv_at]
  rfl

theorem rowNorm_at (b : Fin 4) (k : Fin 64) (u : Fin 1) :
    val_main_v59 (F := Ideal) x0 x1 x2 (ix3 b k u) = rowNorm (member (batch x0) b) (tableOf x1) (tableOf x2) k := by
  show max (Ideal.sqrt (val_main_call0_v2 (F := Ideal) x0 x1 x2 (ix3 b k u))) (val_main_v58 (F := Ideal) (ix3 b k u)) = _
  rw [val_main_v58_apply, val_main_cst_11_apply, val_main_call0_v2_apply, val_main_call0_v1_apply, val_main_call0_cst_apply]
  show max (Ideal.sqrt (Ideal.ofBits .f32 0x00000000#32 + _)) _ = _
  rw [Ideal.ofBits_zero_f32, zero_add]
  refine congrArg (fun t => max (Ideal.sqrt t) eps12) ?_
  refine Finset.sum_congr rfl fun c _ => ?_
  rw [show idx_main_call0_v1 (idx_main_call0_v2 (ix3 b k u)) c = ix3 b k c from by idx3]
  show val_main_v56 (F := Ideal) x0 x1 x2 (ix3 b k c) * val_main_v56 (F := Ideal) x0 x1 x2 (ix3 b k c) = _
  rw [node_at]

theorem rowUnit_at (b : Fin 4) (k : Fin 64) (c : Fin 512) :
    val_main_v61 (F := Ideal) x0 x1 x2 (ix3 b k c) = rowUnit (member (batch x0) b) (tableOf x1) (tableOf x2) k c := by
  show Ideal.div (val_main_v56 (F := Ideal) x0 x1 x2 (ix3 b k c)) (val_main_v60 (F := Ideal) x0 x1 x2 (ix3 b k c)) = _
  rw [val_main_v60_apply, show idx_main_v60 (ix3 b k c) = ix3 b k (0 : Fin 1) from by idx3, node_at, rowNorm_at]
  rfl

/-- Entry `q` of member `b`'s flattened table is the table's entry `(q / 512, q mod 512)`; written for `q = 512 k + c`. -/
theorem flat_at (b : Fin 4) (k : Fin 64) (c : Fin 512) (q : Fin 32768) (hq : q.val = 512 * k.val + c.val) :
    val_main_v62 (F := Ideal) x0 x1 x2 (ix2 b q) = rowUnit (member (batch x0) b) (tableOf x1) (tableOf x2) k c := by
  rw [val_main_v62_apply]
  refine (congrArg (val_main_v61 (F := Ideal) x0 x1 x2) (?_ : idx_main_v62 (ix2 b q) = ix3 b k c)).trans (rowUnit_at x0 x1 x2 b k c)
  have hb := b.isLt; have hk := k.isLt; have hc := c.isLt
  refine funext fun a => Fin.ext ?_
  match a with
  | ⟨0, _⟩ => show (b.val * 32768 + q.val) / 32768 = b.val; omega
  | ⟨1, _⟩ => show (b.val * 32768 + q.val) / 512 % 64 = k.val; omega
  | ⟨2, _⟩ => show (b.val * 32768 + q.val) % 512 = c.val; omega

/-- The index `512 k + c` of the flattened table. -/
def flatIdx (k : Fin 64) (c : Fin 512) : Fin 32768 := ⟨512 * k.val + c.val, by have := k.isLt; have := c.isLt; omega⟩

set_option maxRecDepth 200000 in
theorem tableNorm_at (b : Fin 4) (u : Fin 1) :
    val_main_v65 (F := Ideal) x0 x1 x2 (ix2 b u) = tableNorm (member (batch x0) b) (tableOf x1) (tableOf x2) := by
  show max (Ideal.sqrt (val_main_call1_v2 (F := Ideal) x0 x1 x2 (ix2 b u))) (val_main_v64 (F := Ideal) (ix2 b u)) = _
  rw [val_main_v64_apply, val_main_cst_12_apply, val_main_call1_v2_apply, val_main_call1_v1_apply, val_main_call1_cst_apply]
  show max (Ideal.sqrt (Ideal.ofBits .f32 0x00000000#32 + _)) _ = _
  rw [Ideal.ofBits_zero_f32, zero_add]
  refine congrArg (fun t => max (Ideal.sqrt t) eps12) ?_
  refine (Cert.LibERealSums.sum_fin_blocks (m := 64) (n := 512) (by norm_num) flatIdx (fun k c => rfl) _).trans ?_
  refine Finset.sum_congr rfl fun k _ => Finset.sum_congr rfl fun c _ => ?_
  rw [show idx_main_call1_v1 (idx_main_call1_v2 (ix2 b u)) (flatIdx k c) = ix2 b (flatIdx k c) from by idx2]
  show val_main_v62 (F := Ideal) x0 x1 x2 (ix2 b (flatIdx k c)) * val_main_v62 (F := Ideal) x0 x1 x2 (ix2 b (flatIdx k c)) = _
  rw [flat_at x0 x1 x2 b k c (flatIdx k c) rfl]

set_option maxRecDepth 200000 in
/-- The flattened, doubly normalised table, entry by entry (`q = 512 k + c`). -/
theorem descr_at (b : Fin 4) (k : Fin 64) (c : Fin 512) (q : Fin 32768) (hq : q.val = 512 * k.val + c.val) :
    val_main_v67 (F := Ideal) x0 x1 x2 (ix2 b q) = descr (member (batch x0) b) (tableOf x1) (tableOf x2) k c := by
  show Ideal.div (val_main_v62 (F := Ideal) x0 x1 x2 (ix2 b q)) (val_main_v66 (F := Ideal) x0 x1 x2 (ix2 b q)) = _
  rw [val_main_v66_apply, show idx_main_v66 (ix2 b q) = ix2 b (0 : Fin 1) from by idx2, flat_at x0 x1 x2 b k c q hq, tableNorm_at]
  rfl

/-- The row-major re-reading of a `[4, 64, 512]` array as `[4, 32768]`, at an entry. -/
theorem flatten_apply {α : Type} (y : (⟨3, ![4, 64, 512]⟩ : Shape).Idx → α) (h : (⟨3, ![4, 64, 512]⟩ : Shape).ShapeCasts ⟨2, ![4, 32768]⟩)
    (b : Fin 4) (k : Fin 64) (c : Fin 512) (q : Fin 32768) (hq : q.val = 512 * k.val + c.val) :
    shapeCast ⟨2, ![4, 32768]⟩ y h (ix2 b q) = y (ix3 b k c) :=
  shapeCast_apply y h _ _ (by
    rw [Shape.rowMajor_val_three, Shape.rowMajor_val_two]
    show (b.val * 64 + k.val) * 512 + c.val = b.val * 32768 + q.val
    omega)

/-- The reference's flattened result is the descriptor array re-read in row-major order. -/
theorem flat_eq (h : (⟨3, ![4, 64, 512]⟩ : Shape).ShapeCasts ⟨2, ![4, 32768]⟩) :
    val_main_v67 (F := Ideal) x0 x1 x2 = shapeCast ⟨2, ![4, 32768]⟩ (descrArr (batch x0) x1 x2) h := by
  funext i
  obtain ⟨b, q, rfl⟩ : ∃ (b : Fin 4) (q : Fin 32768), i = ix2 b q := ⟨i 0, i 1, eq_ix2 i⟩
  have hq := q.isLt
  have e : q.val = 512 * (q.val / 512) + q.val % 512 := (Nat.div_add_mod q.val 512).symm
  rw [descr_at x0 x1 x2 b ⟨q.val / 512, by omega⟩ ⟨q.val % 512, Nat.mod_lt _ (by norm_num)⟩ q e,
    flatten_apply _ h b ⟨q.val / 512, by omega⟩ ⟨q.val % 512, Nat.mod_lt _ (by norm_num)⟩ q e]
  rfl

end Cert.ReferenceIdeal.Stages

end
-- ==== Proof.lean ====
/-
  The certificate of the soft-assignment kernel against its jnp reference, over the extended reals.

  Both programs compute, for each of the four images, the soft assignment of its 1024 positions to the 64
  anchors (a softmax over the anchors of −½ · the width-scaled squared distance, the distance expanded into
  three sums over the channels) and the aggregated residual descriptor, normalised row by row and then as a
  whole (Proof/Spec.lean). The kernel does one image per grid point with its products on the matrix unit in
  bf16; the reference works on the whole batch with `dot_general`s and spells the sigmoid
  `1 / (1 + e^(−t))`. At the exact extended reals roundings are the identity, `tpu.logistic` is that quotient, a
  sum from zero is the sum, `max (−∞, y) = y`, and the squared norm of a `[64, 512]` table read as one row of
  32768 entries is the sum of its rows' sums: nothing else separates the two, and no input need be finite.

  The kernel's side: the payloads entry by entry (Proof/KernelPay.lean, Proof/KernelDescr.lean) and the arrays
  after the run (Proof/KernelValue.lean). The reference's side: its stages entry by entry (Proof/RefSoft.lean,
  Proof/RefDescr.lean). The ideal pass rewrote nothing, so `preserves` is trivial.
-/
import proofs.«172682_j56401510531236_1_alg».proof.Defs
import proofs.«172682_j56401510531236_1_alg».proof.Proof.Gen.Kernel
import proofs.«172682_j56401510531236_1_alg».proof.Proof.Gen.Kernel.Frame
import proofs.«172682_j56401510531236_1_alg».proof.Proof.Gen.KernelIdeal
import proofs.«172682_j56401510531236_1_alg».proof.Proof.Gen.KernelIdeal.Frame
import proofs.«172682_j56401510531236_1_alg».proof.Proof.Gen.ReferenceIdeal
import proofs.«172682_j56401510531236_1_alg».proof.Proof.Gen.Pre_finite_inputs
import proofs.«172682_j56401510531236_1_alg».proof.Proof.RefRead
import proofs.«172682_j56401510531236_1_alg».proof.Proof.KernelValue
import proofs.«172682_j56401510531236_1_alg».proof.Proof.RefDescr
import Idealize.ShloMosaic.Adequacy
import Idealize.ShloMosaic.Init

noncomputable section

namespace Cert.Proof

open Idealize.ShloMosaic Idealize.ShloMosaic.TcCoe Idealize.SL.Sem Cert.SoftAssign

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories agreeing on the three arguments both programs end with the same two arrays: the descriptor
    array in row-major order as `[4, 512, 64]`, and the soft-assignment array. -/
theorem algebraic : Cert.algebraic_KernelIdeal_ReferenceIdeal := by
  intro m ρ m' ρ' _ hagree
  refine ⟨_, _, Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v68_eq, (hagree c).1, (hagree c).2.1, (hagree c).2.2]
    unfold Cert.ReferenceIdeal.Read.val_main_v68
    rw [Cert.ReferenceIdeal.Stages.flat_eq _ _ _ Cert.ReferenceIdeal.Gen.shapeCasts_S4x64x512_S4x32768,
      Cert.KernelIdeal.Val.arrX_eq]
    show _ = shapeCast _ (shapeCast _ (descrArr _ (Cert.KernelIdeal.Gen.V m c Cert.KernelIdeal.main_arg1)
      (Cert.KernelIdeal.Gen.V m c Cert.KernelIdeal.main_arg2)) _) _
    rw [Cert.KernelIdeal.Gen.V_main_arg1, Cert.KernelIdeal.Gen.V_main_arg2]
    rfl
  · rw [Cert.ReferenceIdeal.Read.val_main_v40_eq, (hagree c).1, (hagree c).2.1, (hagree c).2.2,
      Cert.ReferenceIdeal.Stages.softArr_eq, Cert.KernelIdeal.Val.arrX_eq]
    show _ = softArr _ (Cert.KernelIdeal.Gen.V m c Cert.KernelIdeal.main_arg1) (Cert.KernelIdeal.Gen.V m c Cert.KernelIdeal.main_arg2)
    rw [Cert.KernelIdeal.Gen.V_main_arg1, Cert.KernelIdeal.Gen.V_main_arg2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
